-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v5)) (v4 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_v9) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_v45) = v3 c
          ∧ r.2.mem ((c.tc : Thread Cert.ReferenceIdeal.nD Cert.ReferenceIdeal.τ).loc Cert.ReferenceIdeal.main_v27) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1000000x3 : Shape := ⟨3, ![8, 1000000, 3]⟩
abbrev S_ : Shape := ⟨0, ![]⟩

class Facts : Prop where
  bcast_S_S8x1000000x3 : S_.BroadcastsInDim S8x1000000x3 (![] : Fin 0 → Fin S8x1000000x3.rank)
  reducesTo_S8x1000000x3_S_d0_1_2 : S8x1000000x3.ReducesTo [0, 1, 2] S_
  h_S_ : 0 < S_.numel

variable [Facts]

def fn {F : FTy → Type} [FloatOps F] (main_arg0 : FVec F S8x1000000x3 .f32) : IVec S_ 1 :=
  let main_v0 : FVec F S8x1000000x3 .f32 := Host.absf main_arg0
  let main_cst : FVec F S_ .f32 := constant S_ .f32 0x7F800000#32
  let main_v1 : FVec F S8x1000000x3 .f32 := broadcastInDim S8x1000000x3 ![] bcast_S_S8x1000000x3 main_cst
  let main_v2 : IVec S8x1000000x3 1 := cmpf .olt main_v0 main_v1
  let main_c : IVec S_ 1 := constantI S_ 1 1#1
  let main_v3 : IVec S_ 1 := (fun x v => Host.reduce IntOp.andi x v reducesTo_S8x1000000x3_S_d0_1_2 h_S_) main_v2 main_c
  main_v3
-- ==== Kernel.lean ====
abbrev S8x1000000x3 : Shape := ⟨3, ![8, 1000000, 3]⟩
abbrev S_ : Shape := ⟨0, ![]⟩
abbrev S8x1007616x3 : Shape := ⟨3, ![8, 1007616, 3]⟩
abbrev S8x1007616 : Shape := ⟨2, ![8, 1007616]⟩
abbrev S8x8192x3 : Shape := ⟨3, ![8, 8192, 3]⟩
abbrev S8x8192 : Shape := ⟨2, ![8, 8192]⟩
abbrev S8x8192x1 : Shape := ⟨3, ![8, 8192, 1]⟩
abbrev S8x1000000 : Shape := ⟨2, ![8, 1000000]⟩

abbrev nBuf : Space → Nat
  | .hbm => 18
  | .vmem => 12
  | .smem => 0
  | _ => 0

abbrev bufTy : (tb : Table) → Fin (tcTables nBuf tb) → BufTy
  | .hbm, ⟨0, _⟩ => ⟨S8x1000000x3, .f32⟩
  | .hbm, ⟨1, _⟩ => ⟨S_, .f32⟩
  | .hbm, ⟨2, _⟩ => ⟨S_, .f32⟩
  | .hbm, ⟨3, _⟩ => ⟨S8x1007616x3, .f32⟩
  | .hbm, ⟨4, _⟩ => ⟨S8x1007616x3, .f32⟩
  | .hbm, ⟨5, _⟩ => ⟨S8x1007616x3, .i32⟩
  | .hbm, ⟨6, _⟩ => ⟨S8x1007616, .i32⟩
  | .hbm, ⟨7, _⟩ => ⟨S8x1007616x3, .f32⟩
  | .hbm, ⟨8, _⟩ => ⟨S8x1007616, .i32⟩
  | .hbm, ⟨9, _⟩ => ⟨S8x1000000x3, .f32⟩
  | .hbm, ⟨10, _⟩ => ⟨S8x1000000x3, .i32⟩
  | .hbm, ⟨11, _⟩ => ⟨S8x1000000, .i32⟩
  | .hbm, ⟨12, _⟩ => ⟨S8x1000000x3, .f32⟩
  | .hbm, ⟨13, _⟩ => ⟨S8x1000000, .i32⟩
  | .hbm, ⟨14, _⟩ => ⟨S_, .i32⟩
  | .hbm, ⟨15, _⟩ => ⟨S8x1000000, .i32⟩
  | .hbm, ⟨16, _⟩ => ⟨S8x1000000, .i1⟩
  | .hbm, ⟨17, _⟩ => ⟨S8x1000000, .i1⟩
  | .local _ .vmem, ⟨0, _⟩ => ⟨S8x8192x3, .f32⟩
  | .local _ .vmem, ⟨1, _⟩ => ⟨S8x8192x3, .f32⟩
  | .local _ .vmem, ⟨2, _⟩ => ⟨S8x8192x3, .f32⟩
  | .local _ .vmem, ⟨3, _⟩ => ⟨S8x8192x3, .f32⟩
  | .local _ .vmem, ⟨4, _⟩ => ⟨S8x8192x3, .i32⟩
  | .local _ .vmem, ⟨5, _⟩ => ⟨S8x8192x3, .i32⟩
  | .local _ .vmem, ⟨6, _⟩ => ⟨S8x8192, .i32⟩
  | .local _ .vmem, ⟨7, _⟩ => ⟨S8x8192, .i32⟩
  | .local _ .vmem, ⟨8, _⟩ => ⟨S8x8192x3, .f32⟩
  | .local _ .vmem, ⟨9, _⟩ => ⟨S8x8192x3, .f32⟩
  | .local _ .vmem, ⟨10, _⟩ => ⟨S8x8192, .i32⟩
  | .local _ .vmem, ⟨11, _⟩ => ⟨S8x8192, .i32⟩
  | _, _ => ⟨S8x1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_call0_v0 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![123], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x8192x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8192x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x8192x3 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x8192 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x8192x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x8192 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  pads_S8x1000000x3_S8x1007616x3_000_076160_000 : S8x1000000x3.Pads (![0, 0, 0] : Fin 3 → Nat) ![0, 7616, 0] ![0, 0, 0] S8x1007616x3
  h_S_ : 0 < S_.numel
  inb_S8x8192x3_S8x8192x3_0_0_0 : ∀ a, (![0, 0, 0] : Fin 3 → Nat) a + S8x8192x3.size a ≤ S8x8192x3.size a
  h_S8x8192x3 : 0 < S8x8192x3.numel
  shapeCasts_S8x8192x3_S8x8192x3 : S8x8192x3.ShapeCasts S8x8192x3
  slices_S8x8192x3_o0_0_0_S8x8192x1 : S8x8192x3.Slices ![0, 0, 0] S8x8192x1
  shapeCasts_S8x8192x1_S8x8192 : S8x8192x1.ShapeCasts S8x8192
  slices_S8x8192x3_o0_0_1_S8x8192x1 : S8x8192x3.Slices ![0, 0, 1] S8x8192x1
  slices_S8x8192x3_o0_0_2_S8x8192x1 : S8x8192x3.Slices ![0, 0, 2] S8x8192x1
  shapeCasts_S8x8192_S8x8192x1 : S8x8192.ShapeCasts S8x8192x1
  concatenates_S8x8192x1_S8x8192x1_S8x8192x1_S8x8192x3_d2 : Shape.Concatenates [S8x8192x1, S8x8192x1, S8x8192x1] S8x8192x3 2
  iota_S8x8192_d1_w32 : S8x8192.Iotas .tc 32 [1]
  inb_S8x8192_S8x8192_0_0 : ∀ a, (![0, 0] : Fin 2 → Nat) a + S8x8192.size a ≤ S8x8192.size a
  h_S8x8192 : 0 < S8x8192.numel
  natLt_1_32 : 1 < 32
  slices_S8x1007616x3_S8x1000000x3_0_0_0 : S8x1007616x3.Slices ![0, 0, 0] S8x1000000x3
  slices_S8x1007616_S8x1000000_0_0 : S8x1007616.Slices ![0, 0] S8x1000000
  bcast_S_S8x1000000 : S_.BroadcastsInDim S8x1000000 (![] : Fin 0 → Fin S8x1000000.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x8192x3.size a ≤ S8x1007616x3.size a
  hwx0_0 : ∀ i : grid0.Coords, EltTy.bits .f32 = 32 ∨ (Rect.block (s := S8x1007616x3) S8x8192x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x8192x3.size a ≤ S8x1007616x3.size a
  hwx0_1 : ∀ i : grid0.Coords, EltTy.bits .f32 = 32 ∨ (Rect.block (s := S8x1007616x3) S8x8192x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x8192x3.size a ≤ S8x1007616x3.size a
  hwx0_2 : ∀ i : grid0.Coords, EltTy.bits .i32 = 32 ∨ (Rect.block (s := S8x1007616x3) S8x8192x3.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x8192.size a ≤ S8x1007616.size a
  hwx0_3 : ∀ i : grid0.Coords, EltTy.bits .i32 = 32 ∨ (Rect.block (s := S8x1007616) S8x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x8192x3.size a ≤ S8x1007616x3.size a
  hwx0_4 : ∀ i : grid0.Coords, EltTy.bits .f32 = 32 ∨ (Rect.block (s := S8x1007616x3) S8x8192x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x8192.size a ≤ S8x1007616.size a
  hwx0_5 : ∀ i : grid0.Coords, EltTy.bits .i32 = 32 ∨ (Rect.block (s := S8x1007616) S8x8192.size (cc0_transform_5 i) (hinb0_5 i)).WholeWords (EltTy.packing .i32)

variable [Facts₀]

abbrev win0_0 : Pipeline.Window sig grid0 :=
  Pipeline.Window.ofSpec (Memref.whole main_v0) S8x8192x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S8x8192x3.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S8x8192x3.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_2) S8x8192.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_3) S8x8192x3.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_4) S8x8192.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x1000000x3 : Shape := ⟨3, ![8, 1000000, 3]⟩
abbrev S3 : Shape := ⟨1, ![3]⟩
abbrev S6 : Shape := ⟨1, ![6]⟩
abbrev S_ : Shape := ⟨0, ![]⟩
abbrev S8x1000000 : Shape := ⟨2, ![8, 1000000]⟩
abbrev S8x1000000x1 : Shape := ⟨3, ![8, 1000000, 1]⟩
abbrev S1x1x3 : Shape := ⟨3, ![1, 1, 3]⟩
abbrev S1000000 : Shape := ⟨1, ![1000000]⟩
abbrev S1x1000000 : Shape := ⟨2, ![1, 1000000]⟩

abbrev nBuf : Space → Nat
  | .hbm => 78
  | .vmem => 0
  | .smem => 0
  | _ => 0

abbrev bufTy : (tb : Table) → Fin (tcTables nBuf tb) → BufTy
  | .hbm, ⟨0, _⟩ => ⟨S8x1000000x3, .f32⟩
  | .hbm, ⟨1, _⟩ => ⟨S3, .f32⟩
  | .hbm, ⟨2, _⟩ => ⟨S6, .f32⟩
  | .hbm, ⟨3, _⟩ => ⟨S3, .f32⟩
  | .hbm, ⟨4, _⟩ => ⟨S3, .f32⟩
  | .hbm, ⟨5, _⟩ => ⟨S3, .f32⟩
  | .hbm, ⟨6, _⟩ => ⟨S3, .f32⟩
  | .hbm, ⟨7, _⟩ => ⟨S3, .f32⟩
  | .hbm, ⟨8, _⟩ => ⟨S3, .f32⟩
  | .hbm, ⟨9, _⟩ => ⟨S3, .i32⟩
  | .hbm, ⟨10, _⟩ => ⟨S8x1000000x3, .i1⟩
  | .hbm, ⟨11, _⟩ => ⟨S_, .i1⟩
  | .hbm, ⟨12, _⟩ => ⟨S8x1000000, .i1⟩
  | .hbm, ⟨13, _⟩ => ⟨S8x1000000, .i1⟩
  | .hbm, ⟨14, _⟩ => ⟨S8x1000000x1, .i1⟩
  | .hbm, ⟨15, _⟩ => ⟨S_, .f32⟩
  | .hbm, ⟨16, _⟩ => ⟨S_, .f32⟩
  | .hbm, ⟨17, _⟩ => ⟨S8x1000000x3, .i1⟩
  | .hbm, ⟨18, _⟩ => ⟨S8x1000000x3, .f32⟩
  | .hbm, ⟨19, _⟩ => ⟨S8x1000000x3, .f32⟩
  | .hbm, ⟨20, _⟩ => ⟨S1x1x3, .f32⟩
  | .hbm, ⟨21, _⟩ => ⟨S8x1000000x3, .f32⟩
  | .hbm, ⟨22, _⟩ => ⟨S8x1000000x3, .f32⟩
  | .hbm, ⟨23, _⟩ => ⟨S1x1x3, .f32⟩
  | .hbm, ⟨24, _⟩ => ⟨S8x1000000x3, .f32⟩
  | .hbm, ⟨25, _⟩ => ⟨S8x1000000x3, .f32⟩
  | .hbm, ⟨26, _⟩ => ⟨S8x1000000x3, .f32⟩
  | .hbm, ⟨27, _⟩ => ⟨S8x1000000x3, .i32⟩
  | .hbm, ⟨28, _⟩ => ⟨S_, .i32⟩
  | .hbm, ⟨29, _⟩ => ⟨S8x1000000x3, .i32⟩
  | .hbm, ⟨30, _⟩ => ⟨S8x1000000x3, .i1⟩
  | .hbm, ⟨31, _⟩ => ⟨S1x1x3, .i32⟩
  | .hbm, ⟨32, _⟩ => ⟨S8x1000000x3, .i32⟩
  | .hbm, ⟨33, _⟩ => ⟨S8x1000000x3, .i1⟩
  | .hbm, ⟨34, _⟩ => ⟨S8x1000000x3, .i1⟩
  | .hbm, ⟨35, _⟩ => ⟨S_, .i1⟩
  | .hbm, ⟨36, _⟩ => ⟨S8x1000000, .i1⟩
  | .hbm, ⟨37, _⟩ => ⟨S8x1000000, .i1⟩
  | .hbm, ⟨38, _⟩ => ⟨S8x1000000x1, .i1⟩
  | .hbm, ⟨39, _⟩ => ⟨S8x1000000x3, .i32⟩
  | .hbm, ⟨40, _⟩ => ⟨S_, .i32⟩
  | .hbm, ⟨41, _⟩ => ⟨S_, .i32⟩
  | .hbm, ⟨42, _⟩ => ⟨S8x1000000x3, .i1⟩
  | .hbm, ⟨43, _⟩ => ⟨S8x1000000x3, .i32⟩
  | .hbm, ⟨44, _⟩ => ⟨S8x1000000x3, .i32⟩
  | .hbm, ⟨45, _⟩ => ⟨S8x1000000x3, .f32⟩
  | .hbm, ⟨46, _⟩ => ⟨S1x1x3, .f32⟩
  | .hbm, ⟨47, _⟩ => ⟨S8x1000000x3, .f32⟩
  | .hbm, ⟨48, _⟩ => ⟨S8x1000000x3, .f32⟩
  | .hbm, ⟨49, _⟩ => ⟨S1x1x3, .f32⟩
  | .hbm, ⟨50, _⟩ => ⟨S8x1000000x3, .f32⟩
  | .hbm, ⟨51, _⟩ => ⟨S8x1000000x3, .f32⟩
  | .hbm, ⟨52, _⟩ => ⟨S_, .f32⟩
  | .hbm, ⟨53, _⟩ => ⟨S3, .f32⟩
  | .hbm, ⟨54, _⟩ => ⟨S3, .f32⟩
  | .hbm, ⟨55, _⟩ => ⟨S1x1x3, .f32⟩
  | .hbm, ⟨56, _⟩ => ⟨S8x1000000x3, .f32⟩
  | .hbm, ⟨57, _⟩ => ⟨S8x1000000x3, .f32⟩
  | .hbm, ⟨58, _⟩ => ⟨S8x1000000x1, .i1⟩
  | .hbm, ⟨59, _⟩ => ⟨S8x1000000x3, .f32⟩
  | .hbm, ⟨60, _⟩ => ⟨S_, .f32⟩
  | .hbm, ⟨61, _⟩ => ⟨S_, .f32⟩
  | .hbm, ⟨62, _⟩ => ⟨S8x1000000x3, .i1⟩
  | .hbm, ⟨63, _⟩ => ⟨S8x1000000x3, .f32⟩
  | .hbm, ⟨64, _⟩ => ⟨S8x1000000x3, .f32⟩
  | .hbm, ⟨65, _⟩ => ⟨S8x1000000x1, .i1⟩
  | .hbm, ⟨66, _⟩ => ⟨S_, .f32⟩
  | .hbm, ⟨67, _⟩ => ⟨S_, .f32⟩
  | .hbm, ⟨68, _⟩ => ⟨S8x1000000x3, .i1⟩
  | .hbm, ⟨69, _⟩ => ⟨S8x1000000x3, .f32⟩
  | .hbm, ⟨70, _⟩ => ⟨S8x1000000x3, .f32⟩
  | .hbm, ⟨71, _⟩ => ⟨S1000000, .i32⟩
  | .hbm, ⟨72, _⟩ => ⟨S1x1000000, .i32⟩
  | .hbm, ⟨73, _⟩ => ⟨S_, .i32⟩
  | .hbm, ⟨74, _⟩ => ⟨S_, .i32⟩
  | .hbm, ⟨75, _⟩ => ⟨S8x1000000, .i32⟩
  | .hbm, ⟨76, _⟩ => ⟨S8x1000000, .i32⟩
  | .hbm, ⟨77, _⟩ => ⟨S8x1000000, .i32⟩
  | _, _ => ⟨S8x1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_4 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_8 : Ref sig .tc := ⟨.hbm, 73, rfl⟩
abbrev main_call5_v0 : Ref sig .tc := ⟨.hbm, 74, rfl⟩
abbrev main_call5_v1 : Ref sig .tc := ⟨.hbm, 75, rfl⟩
abbrev main_call5_v2 : Ref sig .tc := ⟨.hbm, 76, rfl⟩
abbrev main_v50 : Ref sig .tc := ⟨.hbm, 77, rfl⟩

abbrev nD : Nat := 1
abbrev τ : Topo := Topo.v7x

variable {F : FTy → Type} [FloatOps F]

class Facts₀ : Prop where
  slices_S6_S3_0 : S6.Slices ![0] S3
  slices_S6_S3_3 : S6.Slices ![3] S3
  reducesTo_S8x1000000x3_S8x1000000_d2 : S8x1000000x3.ReducesTo [2] S8x1000000
  h_S_ : 0 < S_.numel
  bcast_S8x1000000_S8x1000000x1_0_1 : S8x1000000.BroadcastsInDim S8x1000000x1 (![0, 1] : Fin 2 → Fin S8x1000000x1.rank)
  bcast_S8x1000000x1_S8x1000000x3_0_1_2 : S8x1000000x1.BroadcastsInDim S8x1000000x3 (![0, 1, 2] : Fin 3 → Fin S8x1000000x3.rank)
  bcast_S_S8x1000000x3 : S_.BroadcastsInDim S8x1000000x3 (![] : Fin 0 → Fin S8x1000000x3.rank)
  bcast_S3_S1x1x3_2 : S3.BroadcastsInDim S1x1x3 (![2] : Fin 1 → Fin S1x1x3.rank)
  bcast_S1x1x3_S8x1000000x3_0_1_2 : S1x1x3.BroadcastsInDim S8x1000000x3 (![0, 1, 2] : Fin 3 → Fin S8x1000000x3.rank)
  bcast_S_S3 : S_.BroadcastsInDim S3 (![] : Fin 0 → Fin S3.rank)
  bcast_S1000000_S1x1000000_1 : S1000000.BroadcastsInDim S1x1000000 (![1] : Fin 1 → Fin S1x1000000.rank)
  bcast_S1x1000000_S8x1000000_0_1 : S1x1000000.BroadcastsInDim S8x1000000 (![0, 1] : Fin 2 → Fin S8x1000000.rank)
  bcast_S_S8x1000000 : S_.BroadcastsInDim S8x1000000 (![] : Fin 0 → Fin S8x1000000.rank)

variable [Facts₀]

class Facts : Prop extends Facts₀ where

variable [Facts]
-- ==== Proof.Spec.lean ====
/-
  The voxelizer's result as ONE function of the point array, index by index, on the extended reals.

  A point is a row `(p 0, p 1, p 2)` of an array `x : [8, N, 3]`. Along axis `k` its voxel coordinate is
  `cell k v = int32 (⌊(v - lo k) / vs⌋)` (the floor of the exact quotient, then the conversion to a 32-bit word), the
  point is inside along `k` when `0 ≤ cell k v < ext k` (signed), and it is `valid` when it is inside along all three
  axes. The voxel's centre along `k` is `(float (cell k v) * vs + lo k) + half`. The five results, each masked by
  `valid` of the row:
    `outPts`   the point itself, else 0;
    `coords`   the voxel coordinates in the order (z, y, x) — entry `k` is the coordinate along axis `2 - k` —, else -1;
    `idxes`    the row's number `n`, else -1;
    `offsets`  the point minus its voxel's centre, else 0;
    `validA`   the mask itself.
  Everything is stated for any row count `N`, so that the same text speaks of the padded array a tiled
  computation works on and of the array the caller gave. The float literals stay as their patterns: the same pattern
  on both sides of an equation is never evaluated.
-/
import Idealize.ShloMosaic.PureOps.Ideal
import Idealize.ShloMosaic.Lib.ValueIdx

noncomputable section

namespace Cert.Vox

open Idealize.ShloMosaic Idealize.ShloMosaic.ValueIdx

/-- The voxel's edge, the same along the three axes. -/
def vs : EReal := Ideal.ofBits .f32 0x3E4CCCCD#32
/-- The lower corner of the range along axis `k`. -/
def lo (k : Fin 3) : EReal := match k with
  | 0 => Ideal.ofBits .f32 0xC24CCCCD#32
  | 1 => Ideal.ofBits .f32 0xC24CCCCD#32
  | 2 => Ideal.ofBits .f32 0xC0400000#32
/-- Half an edge. -/
def half : EReal := Ideal.ofBits .f32 0x3DCCCCCD#32
/-- The number of voxels along axis `k`. -/
def ext (k : Fin 3) : BitVec 32 := match k with
  | 0 => 512#32
  | 1 => 512#32
  | 2 => 30#32
/-- The float zero a masked entry takes. -/
def zero : EReal := Ideal.ofBits .f32 0x00000000#32

/-- The voxel coordinate along axis `k` of a point whose coordinate there is `v`. -/
def cell (k : Fin 3) (v : EReal) : BitVec 32 :=
  Ideal.fptosi 32 (Ideal.liftRound Int.floor (Ideal.div (v - lo k) vs))

/-- `0 ≤ cell k v < ext k`, as a one-bit word. -/
def inside (k : Fin 3) (v : EReal) : BitVec 1 :=
  IntOp.andi (IntOp.cmpi .sge (cell k v) 0#32) (IntOp.cmpi .slt (cell k v) (ext k))

/-- The point is inside the grid along all three axes. -/
def valid (p : Fin 3 → EReal) : BitVec 1 :=
  IntOp.andi (IntOp.andi (inside 0 (p 0)) (inside 1 (p 1))) (inside 2 (p 2))

/-- The centre, along axis `k`, of the voxel that holds `v`. -/
def center (k : Fin 3) (v : EReal) : EReal :=
  (((((cell k v).toInt : ℝ) : EReal) * vs) + lo k) + half

/-- Point arrays and per-point arrays of `N` rows. -/
abbrev A3 (N : Nat) : Shape := ⟨3, ![8, N, 3]⟩
abbrev A2 (N : Nat) : Shape := ⟨2, ![8, N]⟩

/-- Row `(b, n)` of a point array. -/
def pt {N : Nat} (x : (A3 N).Idx → EReal) (b : Fin 8) (n : Fin N) : Fin 3 → EReal := fun k => x (ix3 b n k)

def outPts {N : Nat} (x : (A3 N).Idx → EReal) : (A3 N).Idx → EReal := fun j =>
  Scalar.select (valid (pt x (j 0) (j 1))) (x j) zero

def coords {N : Nat} (x : (A3 N).Idx → EReal) : (A3 N).Idx → BitVec 32 := fun j =>
  Scalar.select (valid (pt x (j 0) (j 1))) (cell (j 2).rev (x (ix3 (j 0) (j 1) (j 2).rev))) 4294967295#32

def offsets {N : Nat} (x : (A3 N).Idx → EReal) : (A3 N).Idx → EReal := fun j =>
  Scalar.select (valid (pt x (j 0) (j 1))) (x j - center (j 2) (x j)) zero

def idxes {N : Nat} (x : (A3 N).Idx → EReal) : (A2 N).Idx → BitVec 32 := fun j =>
  Scalar.select (valid (pt x (j 0) (j 1))) (BitVec.ofNat 32 (j 1).val) 4294967295#32

def validA {N : Nat} (x : (A3 N).Idx → EReal) : (A2 N).Idx → BitVec 1 := fun j =>
  valid (pt x (j 0) (j 1))

end Cert.Vox

end
-- ==== Proof.KTailPure.lean ====
/-
  The specification's functions on a point array lengthened by extra rows, cut back to the original rows.

  Every specification function at a row `(b, n)` depends on the array only through that row's three entries. So if a
  long array `xp` (1007616 rows) agrees with a short one `x` (1000000 rows) on the short one's rows, each function of
  `xp`, cut back to the first 1000000 rows, is that function of `x`. Padding an array at the end of its row axis
  gives such a long array. The per-row mask kept as a 32-bit word, compared "not equal" with the zero word, is the mask.
-/
import proofs.«122419_j8100308320786_1_alg».proof.Proof.Spec
import Idealize.ShloMosaic.Lib.KernelVsHost
import Idealize.ShloMosaic.Lib.Pipeline.Value

noncomputable section

namespace Cert.KernelIdeal.KTail

open Idealize.ShloMosaic Idealize.ShloMosaic.ValueIdx Cert.Vox

/-- Row `n` of the short array as a row of the long one. -/
abbrev up (n : Fin 1000000) : Fin 1007616 := ⟨n.val, by have := n.isLt; omega⟩

/-- The long array agrees with the short one on the short one's rows. -/
def Extends (xp : (A3 1007616).Idx → EReal) (x : (A3 1000000).Idx → EReal) : Prop :=
  ∀ (b : Fin 8) (n : Fin 1000000) (k : Fin 3), xp (ix3 b (up n) k) = x (ix3 b n k)

variable {xp : (A3 1007616).Idx → EReal} {x : (A3 1000000).Idx → EReal}

/-- Then the two have the same rows there. -/
theorem pt_eq (h : Extends xp x) (b : Fin 8) (n : Fin 1000000) : pt xp b (up n) = pt x b n :=
  funext fun k => h b n k

/-! ### The cut back to the first 1000000 rows, read at an index -/

theorem slice3_apply {α : Type} (y : (A3 1007616).Idx → α) (hs : (A3 1007616).Slices ![0, 0, 0] (A3 1000000))
    (b : Fin 8) (n : Fin 1000000) (k : Fin 3) :
    extractStridedSlice (A3 1000000) ![0, 0, 0] y hs (ix3 b n k) = y (ix3 b (up n) k) := by
  refine extractStridedSlice_apply _ _ _ (ix3 b n k) (ix3 b (up n) k) (fun a => ?_)
  match a with
  | ⟨0, _⟩ => show b.val = 0 + b.val; omega
  | ⟨1, _⟩ => show n.val = 0 + n.val; omega
  | ⟨2, _⟩ => show k.val = 0 + k.val; omega

theorem slice2_apply {α : Type} (y : (A2 1007616).Idx → α) (hs : (A2 1007616).Slices ![0, 0] (A2 1000000))
    (b : Fin 8) (n : Fin 1000000) :
    extractStridedSlice (A2 1000000) ![0, 0] y hs (ix2 b n) = y (ix2 b (up n)) := by
  refine extractStridedSlice_apply _ _ _ (ix2 b n) (ix2 b (up n)) (fun a => ?_)
  match a with
  | ⟨0, _⟩ => show b.val = 0 + b.val; omega
  | ⟨1, _⟩ => show n.val = 0 + n.val; omega

/-! ### The five results -/

theorem slice_outPts (h : Extends xp x) (hs : (A3 1007616).Slices ![0, 0, 0] (A3 1000000)) :
    extractStridedSlice (A3 1000000) ![0, 0, 0] (outPts xp) hs = outPts x := by
  funext j
  obtain ⟨b, n, k, rfl⟩ : ∃ (b : Fin 8) (n : Fin 1000000) (k : Fin 3), j = ix3 b n k := ⟨j 0, j 1, j 2, eq_ix3 j⟩
  rw [slice3_apply]
  show Scalar.select (valid (pt xp b (up n))) (xp (ix3 b (up n) k)) zero
    = Scalar.select (valid (pt x b n)) (x (ix3 b n k)) zero
  rw [pt_eq h, h b n k]

theorem slice_coords (h : Extends xp x) (hs : (A3 1007616).Slices ![0, 0, 0] (A3 1000000)) :
    extractStridedSlice (A3 1000000) ![0, 0, 0] (coords xp) hs = coords x := by
  funext j
  obtain ⟨b, n, k, rfl⟩ : ∃ (b : Fin 8) (n : Fin 1000000) (k : Fin 3), j = ix3 b n k := ⟨j 0, j 1, j 2, eq_ix3 j⟩
  rw [slice3_apply]
  show Scalar.select (valid (pt xp b (up n))) (cell k.rev (xp (ix3 b (up n) k.rev))) 4294967295#32
    = Scalar.select (valid (pt x b n)) (cell k.rev (x (ix3 b n k.rev))) 4294967295#32
  rw [pt_eq h, h b n k.rev]

theorem slice_offsets (h : Extends xp x) (hs : (A3 1007616).Slices ![0, 0, 0] (A3 1000000)) :
    extractStridedSlice (A3 1000000) ![0, 0, 0] (offsets xp) hs = offsets x := by
  funext j
  obtain ⟨b, n, k, rfl⟩ : ∃ (b : Fin 8) (n : Fin 1000000) (k : Fin 3), j = ix3 b n k := ⟨j 0, j 1, j 2, eq_ix3 j⟩
  rw [slice3_apply]
  show Scalar.select (valid (pt xp b (up n))) (xp (ix3 b (up n) k) - center k (xp (ix3 b (up n) k))) zero
    = Scalar.select (valid (pt x b n)) (x (ix3 b n k) - center k (x (ix3 b n k))) zero
  rw [pt_eq h, h b n k]

theorem slice_idxes (h : Extends xp x) (hs : (A2 1007616).Slices ![0, 0] (A2 1000000)) :
    extractStridedSlice (A2 1000000) ![0, 0] (idxes xp) hs = idxes x := by
  funext j
  obtain ⟨b, n, rfl⟩ : ∃ (b : Fin 8) (n : Fin 1000000), j = ix2 b n := ⟨j 0, j 1, eq_ix2 j⟩
  rw [slice2_apply]
  show Scalar.select (valid (pt xp b (up n))) (BitVec.ofNat 32 n.val) 4294967295#32
    = Scalar.select (valid (pt x b n)) (BitVec.ofNat 32 n.val) 4294967295#32
  rw [pt_eq h]

/-- A one-bit word widened to 32 bits differs from the zero word exactly when it is 1. -/
theorem ne_zero_setWidth (w : BitVec 1) : IntOp.cmpi .ne (w.setWidth 32) 0#32 = w := by
  revert w; decide

theorem slice_mask (h : Extends xp x) (hs : (A2 1007616).Slices ![0, 0] (A2 1000000))
    (z : IVec (A2 1000000) 32) (hz : ∀ j, z j = 0#32) :
    cmpi .ne (extractStridedSlice (A2 1000000) ![0, 0] (fun j => (validA xp j).setWidth 32) hs) z = validA x := by
  funext j
  obtain ⟨b, n, rfl⟩ : ∃ (b : Fin 8) (n : Fin 1000000), j = ix2 b n := ⟨j 0, j 1, eq_ix2 j⟩
  show IntOp.cmpi .ne (extractStridedSlice (A2 1000000) ![0, 0] (fun j => (validA xp j).setWidth 32) hs (ix2 b n))
    (z (ix2 b n)) = valid (pt x b n)
  rw [slice2_apply, hz]
  show IntOp.cmpi .ne ((valid (pt xp b (up n))).setWidth 32) 0#32 = _
  rw [ne_zero_setWidth, pt_eq h]

/-! ### Padding at the end of the row axis -/

theorem pad_extends (x : (A3 1000000).Idx → EReal) {u : Shape} (v : u.Idx → EReal)
    (hp : (A3 1000000).Pads ![0, 0, 0] ![0, 7616, 0] ![0, 0, 0] (A3 1007616)) (hu : 0 < u.numel) :
    Extends (pad (A3 1007616) ![0, 0, 0] ![0, 7616, 0] ![0, 0, 0] x v hp hu) x := by
  intro b n k
  refine pad_apply_of_inside _ _ _ x v hp hu (ix3 b (up n) k) (ix3 b n k) (fun a => ?_)
  match a with
  | ⟨0, _⟩ => show b.val = 0 + b.val * (0 + 1); omega
  | ⟨1, _⟩ => show n.val = 0 + n.val * (0 + 1); omega
  | ⟨2, _⟩ => show k.val = 0 + k.val * (0 + 1); omega

end Cert.KernelIdeal.KTail

end
-- ==== Proof.Consts.lean ====
/-
  The few facts about this computation's constants and comparisons on the extended reals that are not the same pattern
  on both sides. The single-precision patterns involved denote dyadic rationals: 0.2 is 13421773·2^-26, 51.2 is
  13421773·2^-18 (the same significand, eight binades up, so 51.2 / 0.2 is exactly 256), 0.1 is 13421773·2^-27 (one
  binade down: exactly half of 0.2), and 3 and 2 are themselves. Hence (51.2 - (-51.2)) / 0.2 = 512 exactly;
  (3 - (-3)) / 0.2 = 6·2^26 / 13421773, which lies strictly between 29.5 and 30 and so rounds to 30; and 0.2 / 2 is the
  pattern of 0.1. Both small integers convert to 32-bit words unchanged. And nothing differs from itself.
-/
import Idealize.ShloMosaic.PureOps.Ideal

noncomputable section

namespace Cert.Vox.Consts

open Idealize.ShloMosaic

/-! ## The patterns as reals -/

theorem edge_val : Ideal.ofBits .f32 0x3E4CCCCD#32 = ((13421773 / 67108864 : ℝ) : EReal) := by
  simp [Ideal.ofBits, Ideal.ieee, -EReal.coe_mul]; norm_num
theorem upper_val : Ideal.ofBits .f32 0x424CCCCD#32 = ((13421773 / 262144 : ℝ) : EReal) := by
  simp [Ideal.ofBits, Ideal.ieee, -EReal.coe_mul]; norm_num
theorem lower_val : Ideal.ofBits .f32 0xC24CCCCD#32 = ((-(13421773 / 262144) : ℝ) : EReal) := by
  simp [Ideal.ofBits, Ideal.ieee, -EReal.coe_mul]; norm_num
theorem half_val : Ideal.ofBits .f32 0x3DCCCCCD#32 = ((13421773 / 134217728 : ℝ) : EReal) := by
  simp [Ideal.ofBits, Ideal.ieee, -EReal.coe_mul]; norm_num
theorem three_val : Ideal.ofBits .f32 0x40400000#32 = ((3 : ℝ) : EReal) := by
  simp [Ideal.ofBits, Ideal.ieee, -EReal.coe_mul]; norm_num
theorem neg_three_val : Ideal.ofBits .f32 0xC0400000#32 = ((-3 : ℝ) : EReal) := by
  simp [Ideal.ofBits, Ideal.ieee, -EReal.coe_mul]; norm_num
theorem two_val : Ideal.ofBits .f32 0x40000000#32 = ((2 : ℝ) : EReal) := by
  simp [Ideal.ofBits, Ideal.ieee, -EReal.coe_mul]; norm_num

/-! ## The two quotients, their nearest integers, and those as words -/

/-- (51.2 + 51.2) / 0.2 in single-precision values is exactly 512. -/
theorem quot_xy : Ideal.div (Ideal.ofBits .f32 0x424CCCCD#32 - Ideal.ofBits .f32 0xC24CCCCD#32)
    (Ideal.ofBits .f32 0x3E4CCCCD#32) = ((512 : ℝ) : EReal) := by
  rw [upper_val, lower_val, edge_val, ← EReal.coe_sub, Ideal.div_coe (by norm_num), ← EReal.coe_mul]
  norm_num

/-- 6 / 0.2 with the single-precision 0.2 is 6·2^26 / 13421773, just under 30. -/
theorem quot_z : Ideal.div (Ideal.ofBits .f32 0x40400000#32 - Ideal.ofBits .f32 0xC0400000#32)
    (Ideal.ofBits .f32 0x3E4CCCCD#32) = ((402653184 / 13421773 : ℝ) : EReal) := by
  rw [three_val, neg_three_val, edge_val, ← EReal.coe_sub, Ideal.div_coe (by norm_num), ← EReal.coe_mul]
  norm_num

/-- An integer is its own nearest integer. -/
theorem round_512 : Ideal.roundHalfEven (512 : ℝ) = 512 := by
  have hf : ⌊(512 : ℝ)⌋ = 512 := by
    rw [Int.floor_eq_iff]; norm_num
  unfold Ideal.roundHalfEven
  simp only [hf]
  norm_num

/-- 6·2^26 / 13421773 has floor 29 and fractional part above one half: its nearest integer is 30. -/
theorem round_z : Ideal.roundHalfEven (402653184 / 13421773 : ℝ) = 30 := by
  have hf : ⌊(402653184 / 13421773 : ℝ)⌋ = 29 := by
    rw [Int.floor_eq_iff]; norm_num
  unfold Ideal.roundHalfEven
  simp only [hf]
  norm_num

/-- An integer in the signed 32-bit range converts to its own word: nothing is cut off and nothing is clamped. -/
theorem toWord (n : ℤ) (h0 : -2147483648 ≤ n) (h1 : n ≤ 2147483647) :
    Ideal.fptosi 32 (((n : ℝ)) : EReal) = BitVec.ofInt 32 n := by
  unfold Ideal.fptosi
  rw [Ideal.toIntClamped_coe]
  congr 1
  rcases le_or_gt 0 n with h | h
  · rw [if_pos (by exact_mod_cast h), Int.floor_intCast]; norm_num; omega
  · rw [if_neg (by push_cast; exact_mod_cast not_le.mpr h), Int.ceil_intCast]; norm_num; omega

/-- (51.2 - (-51.2)) / 0.2, the three numbers as their single-precision values, is exactly 512. -/
theorem grid_xy : Ideal.fptosi 32 (Ideal.liftRound Ideal.roundHalfEven (Ideal.div
    (Ideal.ofBits .f32 0x424CCCCD#32 - Ideal.ofBits .f32 0xC24CCCCD#32) (Ideal.ofBits .f32 0x3E4CCCCD#32))) = 512#32 := by
  rw [quot_xy, Ideal.liftRound_coe, round_512, toWord 512 (by norm_num) (by norm_num)]
  rfl

/-- (3 - (-3)) / 0.2 with 0.2 as its single-precision value is just under 30 and rounds to 30. -/
theorem grid_z : Ideal.fptosi 32 (Ideal.liftRound Ideal.roundHalfEven (Ideal.div
    (Ideal.ofBits .f32 0x40400000#32 - Ideal.ofBits .f32 0xC0400000#32) (Ideal.ofBits .f32 0x3E4CCCCD#32))) = 30#32 := by
  rw [quot_z, Ideal.liftRound_coe, round_z, toWord 30 (by norm_num) (by norm_num)]
  rfl

/-- Half the single-precision 0.2 is the single-precision 0.1: halving only lowers the exponent. -/
theorem half_edge : Ideal.div (Ideal.ofBits .f32 0x3E4CCCCD#32) (Ideal.ofBits .f32 0x40000000#32)
    = Ideal.ofBits .f32 0x3DCCCCCD#32 := by
  rw [edge_val, two_val, half_val, Ideal.div_coe (by norm_num), ← EReal.coe_mul]
  norm_num

/-! ## Comparisons -/

/-- No extended real differs from itself: the unordered "not equal" is 0 (nothing is unordered), -/
theorem cmp_une_self (v : EReal) : Ideal.cmp .une v v = 0#1 := by
  simp [Ideal.cmp]

/-- and so is the ordered one. -/
theorem cmp_one_self (v : EReal) : Ideal.cmp .one v v = 0#1 := by
  simp [Ideal.cmp]

end Cert.Vox.Consts

end
-- ==== Proof.KLayout.lean ====
/-
  How a [8, 8192, 3] block and its three [8, 8192] columns are read at an index: column kk of the block at (b, r) is the
  block at (b, r, kk); a [8, 8192] array viewed with a trailing unit axis keeps its entries; and three such arrays
  laid side by side along the third axis give, at (b, r, k), the k-th array's entry (b, r).
-/
import proofs.«122419_j8100308320786_1_alg».proof.Proof.Gen.KernelIdeal.Skeleton
import Idealize.ShloMosaic.Lib.Pipeline.Value
import Idealize.ShloMosaic.Lib.ValueIdx

noncomputable section
namespace Cert.KernelIdeal.KLayout
open Idealize.ShloMosaic Idealize.ShloMosaic.ValueIdx Cert.KernelIdeal

/-- Column kk of a block, as a [8, 8192] array: entry (b, r) is the block's entry (b, r, kk). -/
theorem col_apply {α : Type} (v : S8x8192x3.Idx → α) (kk : Nat) (hkk : kk < 3)
    (hs : S8x8192x3.Slices ![0, 0, kk] S8x8192x1) (hc : S8x8192x1.ShapeCasts S8x8192) (b : Fin 8) (r : Fin 8192) :
    shapeCast S8x8192 (extractStridedSlice S8x8192x1 ![0, 0, kk] v hs) hc (ix2 b r) = v (ix3 b r ⟨kk, hkk⟩) := by
  refine (shapeCast_apply _ hc (ix2 b r) (ix3 b r (0 : Fin 1)) ?_).trans ?_
  · rw [Shape.rowMajor_val_three, Shape.rowMajor_val_two]
    show ((b.val * 8192 + r.val) * 1 + 0) = b.val * 8192 + r.val
    omega
  · refine extractStridedSlice_apply _ v hs _ _ (fun a => ?_)
    match a with
    | ⟨0, _⟩ => show b.val = 0 + b.val; omega
    | ⟨1, _⟩ => show r.val = 0 + r.val; omega
    | ⟨2, _⟩ => show kk = kk + 0; omega

/-- A [8, 8192] array viewed [8, 8192, 1]: entry (b, r, 0) is entry (b, r). -/
theorem unit_apply {α : Type} (v : S8x8192.Idx → α) (hc : S8x8192.ShapeCasts S8x8192x1) (b : Fin 8) (r : Fin 8192) (z : Fin 1) :
    shapeCast S8x8192x1 v hc (ix3 b r z) = v (ix2 b r) := by
  refine shapeCast_apply _ hc (ix3 b r z) (ix2 b r) ?_
  rw [Shape.rowMajor_val_three, Shape.rowMajor_val_two]
  show b.val * 8192 + r.val = ((b.val * 8192 + r.val) * 1 + z.val)
  have := z.isLt
  omega

/-- The three pieces of a block laid side by side along the third axis. -/
abbrev pieces3 {α : Type} (v0 v1 v2 : S8x8192.Idx → α) (hc : S8x8192.ShapeCasts S8x8192x1) : List ((s : Shape) × (s.Idx → α)) :=
  [⟨S8x8192x1, shapeCast S8x8192x1 v0 hc⟩, ⟨S8x8192x1, shapeCast S8x8192x1 v1 hc⟩, ⟨S8x8192x1, shapeCast S8x8192x1 v2 hc⟩]

/-- Three [8, 8192] arrays laid side by side along a third axis: entry (b, r, k) is the k-th array's entry (b, r). -/
theorem cat3_apply {α : Type} (v0 v1 v2 : S8x8192.Idx → α) (hc : S8x8192.ShapeCasts S8x8192x1)
    (h : Shape.Concatenates [S8x8192x1, S8x8192x1, S8x8192x1] S8x8192x3 2) (b : Fin 8) (r : Fin 8192) (k : Fin 3) :
    concatenate S8x8192x3 2 (pieces3 v0 v1 v2 hc) h (ix3 b r k)
    = (match k with | 0 => v0 | 1 => v1 | 2 => v2) (ix2 b r) := by
  match k with
  | ⟨0, _⟩ =>
    refine (concatenate_apply_piece (t := S8x8192x3) (2 : Fin 3) (pieces3 v0 v1 v2 hc) h (ix3 b r (0 : Fin 3)) 0 (show 0 < 3 by omega) S8x8192x1
      (shapeCast S8x8192x1 v0 hc) rfl rfl 0 rfl (ix3 b r (0 : Fin 1)) (fun a ha => ?_) rfl).trans (unit_apply v0 hc b r 0)
    match a with
    | ⟨0, _⟩ => rfl
    | ⟨1, _⟩ => rfl
    | ⟨2, _⟩ => exact absurd rfl ha
  | ⟨1, _⟩ =>
    refine (concatenate_apply_piece (t := S8x8192x3) (2 : Fin 3) (pieces3 v0 v1 v2 hc) h (ix3 b r (1 : Fin 3)) 1 (show 1 < 3 by omega) S8x8192x1
      (shapeCast S8x8192x1 v1 hc) rfl rfl 1 rfl (ix3 b r (0 : Fin 1)) (fun a ha => ?_) rfl).trans (unit_apply v1 hc b r 0)
    match a with
    | ⟨0, _⟩ => rfl
    | ⟨1, _⟩ => rfl
    | ⟨2, _⟩ => exact absurd rfl ha
  | ⟨2, _⟩ =>
    refine (concatenate_apply_piece (t := S8x8192x3) (2 : Fin 3) (pieces3 v0 v1 v2 hc) h (ix3 b r (2 : Fin 3)) 2 (show 2 < 3 by omega) S8x8192x1
      (shapeCast S8x8192x1 v2 hc) rfl rfl 2 rfl (ix3 b r (0 : Fin 1)) (fun a ha => ?_) rfl).trans (unit_apply v2 hc b r 0)
    match a with
    | ⟨0, _⟩ => rfl
    | ⟨1, _⟩ => rfl
    | ⟨2, _⟩ => exact absurd rfl ha

end Cert.KernelIdeal.KLayout
end
-- ==== Proof.KPoint.lean ====
/-
  What the kernel's body computes at ONE point of a block, on the extended reals. For a block x0 : [8, 8192, 3] and a row
  (b, r) of it, write p k = x0 (b, r, k). No extended real differs from itself, so the body's NaN mask is 1 and the
  cleaned coordinates are the p k themselves; the three voxel coordinates are `cell k (p k)`; the conjunction of the six
  range tests, in the order the body takes them, is `valid p` (and is associative and commutative, and 1 is its unit);
  and the five stored values are the specification's entries: the point or 0, the voxel coordinates in the order
  (z, y, x) or -1, the row's number or -1, the point minus its voxel's centre or 0, and the mask widened to a word.
-/
import proofs.«122419_j8100308320786_1_alg».proof.Proof.Gen.KernelIdeal.Skeleton
import proofs.«122419_j8100308320786_1_alg».proof.Proof.Spec
import proofs.«122419_j8100308320786_1_alg».proof.Proof.Consts
import proofs.«122419_j8100308320786_1_alg».proof.Proof.KLayout
import Idealize.ShloMosaic.Lib.Pipeline.Value
import Idealize.ShloMosaic.Lib.ValueIdx

noncomputable section

namespace Cert.KernelIdeal.KPoint

open Idealize.ShloMosaic Idealize.ShloMosaic.ValueIdx Cert.KernelIdeal Cert.KernelIdeal.Gen Cert.KernelIdeal.KLayout
open Cert.Vox (cell inside valid center)

variable [Cert.KernelIdeal.Facts]
open Facts₀ Facts

variable (x0 : Vec Ideal S8x8192x3 .f32) (b : Fin 8) (r : Fin 8192)

/-- The row's three coordinates. -/
abbrev row : Fin 3 → EReal := fun k => x0 (ix3 b r k)

theorem pay7_apply : k0_pay7 x0 (ix2 b r) = x0 (ix3 b r 0) :=
  (col_apply _ 0 (by omega) _ _ b r).trans (congrFun (shapeCast_self x0 _) _)
theorem pay8_apply : k0_pay8 x0 (ix2 b r) = x0 (ix3 b r 1) :=
  (col_apply _ 1 (by omega) _ _ b r).trans (congrFun (shapeCast_self x0 _) _)
theorem pay9_apply : k0_pay9 x0 (ix2 b r) = x0 (ix3 b r 2) :=
  (col_apply _ 2 (by omega) _ _ b r).trans (congrFun (shapeCast_self x0 _) _)

/-- No coordinate differs from itself: the mask of rows without a NaN is 1. -/
theorem pay10_apply : k0_pay10 x0 (ix2 b r) = 1#1 := by
  show IntOp.xori (IntOp.ori (IntOp.ori (Ideal.cmp .one (k0_pay7 x0 (ix2 b r)) (k0_pay7 x0 (ix2 b r)))
      (Ideal.cmp .one (k0_pay8 x0 (ix2 b r)) (k0_pay8 x0 (ix2 b r))))
      (Ideal.cmp .one (k0_pay9 x0 (ix2 b r)) (k0_pay9 x0 (ix2 b r)))) 1#1 = 1#1
  rw [Cert.Vox.Consts.cmp_one_self, Cert.Vox.Consts.cmp_one_self, Cert.Vox.Consts.cmp_one_self]
  decide

theorem pay11_apply : k0_pay11 x0 (ix2 b r) = x0 (ix3 b r 0) := by
  show Scalar.select (k0_pay10 x0 (ix2 b r)) (k0_pay7 x0 (ix2 b r)) _ = _
  rw [pay10_apply, select_one, pay7_apply]
theorem pay12_apply : k0_pay12 x0 (ix2 b r) = x0 (ix3 b r 1) := by
  show Scalar.select (k0_pay10 x0 (ix2 b r)) (k0_pay8 x0 (ix2 b r)) _ = _
  rw [pay10_apply, select_one, pay8_apply]
theorem pay13_apply : k0_pay13 x0 (ix2 b r) = x0 (ix3 b r 2) := by
  show Scalar.select (k0_pay10 x0 (ix2 b r)) (k0_pay9 x0 (ix2 b r)) _ = _
  rw [pay10_apply, select_one, pay9_apply]

theorem pay14_apply : k0_pay14 x0 (ix2 b r) = cell 0 (x0 (ix3 b r 0)) := by
  show Ideal.fptosi 32 (Ideal.liftRound Int.floor (Ideal.div (k0_pay11 x0 (ix2 b r) - Ideal.ofBits .f32 0xC24CCCCD#32)
    (Ideal.ofBits .f32 0x3E4CCCCD#32))) = _
  rw [pay11_apply]; rfl
theorem pay15_apply : k0_pay15 x0 (ix2 b r) = cell 1 (x0 (ix3 b r 1)) := by
  show Ideal.fptosi 32 (Ideal.liftRound Int.floor (Ideal.div (k0_pay12 x0 (ix2 b r) - Ideal.ofBits .f32 0xC24CCCCD#32)
    (Ideal.ofBits .f32 0x3E4CCCCD#32))) = _
  rw [pay12_apply]; rfl
theorem pay16_apply : k0_pay16 x0 (ix2 b r) = cell 2 (x0 (ix3 b r 2)) := by
  show Ideal.fptosi 32 (Ideal.liftRound Int.floor (Ideal.div (k0_pay13 x0 (ix2 b r) - Ideal.ofBits .f32 0xC0400000#32)
    (Ideal.ofBits .f32 0x3E4CCCCD#32))) = _
  rw [pay13_apply]; rfl

theorem pay17_apply : k0_pay17 x0 (ix2 b r) = inside 0 (x0 (ix3 b r 0)) := by
  show IntOp.andi (IntOp.cmpi .sge (k0_pay14 x0 (ix2 b r)) 0#32) (IntOp.cmpi .slt (k0_pay14 x0 (ix2 b r)) 512#32) = _
  rw [pay14_apply]; rfl

/-- One-bit conjunctions regroup freely, and 1 is the unit. -/
theorem and6 (a0 b0 a1 b1 a2 b2 : BitVec 1) :
    IntOp.andi 1#1 (IntOp.andi (IntOp.andi (IntOp.andi (IntOp.andi (IntOp.andi a0 b0) a1) b1) a2) b2)
    = IntOp.andi (IntOp.andi (IntOp.andi a0 b0) (IntOp.andi a1 b1)) (IntOp.andi a2 b2) := by
  show 1#1 &&& (((((a0 &&& b0) &&& a1) &&& b1) &&& a2) &&& b2) = ((a0 &&& b0) &&& (a1 &&& b1)) &&& (a2 &&& b2)
  rw [show (1#1 : BitVec 1) = BitVec.allOnes 1 from rfl, BitVec.allOnes_and]
  ac_rfl

/-- The body's mask at a row is the specification's. -/
theorem pay18_apply :
    k0_pay18 (k0_pay10 x0) (k0_pay15 x0) (k0_pay16 x0) (k0_pay17 x0) 0#32 (ix2 b r) = valid (row x0 b r) := by
  show IntOp.andi (k0_pay10 x0 (ix2 b r)) (IntOp.andi (IntOp.andi (IntOp.andi (IntOp.andi (k0_pay17 x0 (ix2 b r))
      (IntOp.cmpi .sge (k0_pay15 x0 (ix2 b r)) 0#32)) (IntOp.cmpi .slt (k0_pay15 x0 (ix2 b r)) 512#32))
      (IntOp.cmpi .sge (k0_pay16 x0 (ix2 b r)) 0#32)) (IntOp.cmpi .slt (k0_pay16 x0 (ix2 b r)) 30#32)) = _
  rw [pay10_apply, pay17_apply, pay15_apply, pay16_apply]
  exact and6 _ _ _ _ _ _

/-- The body's mask, as the frame names it. -/
abbrev mask : IVec S8x8192 1 := k0_pay18 (k0_pay10 x0) (k0_pay15 x0) (k0_pay16 x0) (k0_pay17 x0) 0#32

theorem mask_apply : mask x0 (ix2 b r) = valid (row x0 b r) := pay18_apply x0 b r

/-- Stored to the first output: the point, or 0 on an invalid row. -/
theorem pay1_apply (k : Fin 3) :
    k0_pay1 (k0_pay11 x0) (k0_pay12 x0) (k0_pay13 x0) (mask x0) (k0_pay22 (F := Ideal)) (ix3 b r k)
    = Scalar.select (valid (row x0 b r)) (x0 (ix3 b r k)) Cert.Vox.zero := by
  refine (cat3_apply _ _ _ Gen.shapeCasts_S8x8192_S8x8192x1 Gen.concatenates_S8x8192x1_S8x8192x1_S8x8192x1_S8x8192x3_d2 b r k).trans ?_
  match k with
  | ⟨0, _⟩ =>
    show Scalar.select (mask x0 (ix2 b r)) (k0_pay11 x0 (ix2 b r)) _ = _
    rw [mask_apply, pay11_apply]; rfl
  | ⟨1, _⟩ =>
    show Scalar.select (mask x0 (ix2 b r)) (k0_pay12 x0 (ix2 b r)) _ = _
    rw [mask_apply, pay12_apply]; rfl
  | ⟨2, _⟩ =>
    show Scalar.select (mask x0 (ix2 b r)) (k0_pay13 x0 (ix2 b r)) _ = _
    rw [mask_apply, pay13_apply]; rfl

/-- Stored to the second output: the voxel coordinates in the order (z, y, x), or -1. -/
theorem pay2_apply (k : Fin 3) :
    k0_pay2 (k0_pay14 x0) (k0_pay15 x0) (k0_pay16 x0) (mask x0) (ix3 b r k)
    = Scalar.select (valid (row x0 b r)) (cell k.rev (x0 (ix3 b r k.rev))) 4294967295#32 := by
  refine (cat3_apply _ _ _ Gen.shapeCasts_S8x8192_S8x8192x1 Gen.concatenates_S8x8192x1_S8x8192x1_S8x8192x1_S8x8192x3_d2 b r k).trans ?_
  match k with
  | ⟨0, _⟩ =>
    show Scalar.select (mask x0 (ix2 b r)) (k0_pay16 x0 (ix2 b r)) _ = _
    rw [mask_apply, pay16_apply]; rfl
  | ⟨1, _⟩ =>
    show Scalar.select (mask x0 (ix2 b r)) (k0_pay15 x0 (ix2 b r)) _ = _
    rw [mask_apply, pay15_apply]; rfl
  | ⟨2, _⟩ =>
    show Scalar.select (mask x0 (ix2 b r)) (k0_pay14 x0 (ix2 b r)) _ = _
    rw [mask_apply, pay14_apply]; rfl

/-- The offset from the voxel's centre along each axis, or 0. -/
theorem pay19_apply :
    k0_pay19 (k0_pay10 x0) (k0_pay11 x0) (k0_pay14 x0) (k0_pay15 x0) (k0_pay16 x0) (k0_pay17 x0) 0#32 (ix2 b r)
    = Scalar.select (valid (row x0 b r)) (x0 (ix3 b r 0) - center 0 (x0 (ix3 b r 0))) Cert.Vox.zero := by
  show Scalar.select (mask x0 (ix2 b r)) (k0_pay11 x0 (ix2 b r)
      - ((((((k0_pay14 x0 (ix2 b r)).toInt : ℝ) : EReal) * Ideal.ofBits .f32 0x3E4CCCCD#32) + Ideal.ofBits .f32 0xC24CCCCD#32)
        + Ideal.ofBits .f32 0x3DCCCCCD#32)) _ = _
  rw [mask_apply, pay11_apply, pay14_apply]; rfl
theorem pay20_apply :
    k0_pay20 (k0_pay10 x0) (k0_pay12 x0) (k0_pay15 x0) (k0_pay16 x0) (k0_pay17 x0) 0#32 (ix2 b r)
    = Scalar.select (valid (row x0 b r)) (x0 (ix3 b r 1) - center 1 (x0 (ix3 b r 1))) Cert.Vox.zero := by
  show Scalar.select (mask x0 (ix2 b r)) (k0_pay12 x0 (ix2 b r)
      - ((((((k0_pay15 x0 (ix2 b r)).toInt : ℝ) : EReal) * Ideal.ofBits .f32 0x3E4CCCCD#32) + Ideal.ofBits .f32 0xC24CCCCD#32)
        + Ideal.ofBits .f32 0x3DCCCCCD#32)) _ = _
  rw [mask_apply, pay12_apply, pay15_apply]; rfl
theorem pay21_apply :
    k0_pay21 (k0_pay10 x0) (k0_pay13 x0) (k0_pay15 x0) (k0_pay16 x0) (k0_pay17 x0) 0#32 (ix2 b r)
    = Scalar.select (valid (row x0 b r)) (x0 (ix3 b r 2) - center 2 (x0 (ix3 b r 2))) Cert.Vox.zero := by
  show Scalar.select (mask x0 (ix2 b r)) (k0_pay13 x0 (ix2 b r)
      - ((((((k0_pay16 x0 (ix2 b r)).toInt : ℝ) : EReal) * Ideal.ofBits .f32 0x3E4CCCCD#32) + Ideal.ofBits .f32 0xC0400000#32)
        + Ideal.ofBits .f32 0x3DCCCCCD#32)) _ = _
  rw [mask_apply, pay13_apply, pay16_apply]; rfl

/-- Stored to the fourth output: the three offsets side by side. -/
theorem pay3_apply (k : Fin 3) :
    k0_pay3 (k0_pay19 (k0_pay10 x0) (k0_pay11 x0) (k0_pay14 x0) (k0_pay15 x0) (k0_pay16 x0) (k0_pay17 x0) 0#32)
      (k0_pay20 (k0_pay10 x0) (k0_pay12 x0) (k0_pay15 x0) (k0_pay16 x0) (k0_pay17 x0) 0#32)
      (k0_pay21 (k0_pay10 x0) (k0_pay13 x0) (k0_pay15 x0) (k0_pay16 x0) (k0_pay17 x0) 0#32) (ix3 b r k)
    = Scalar.select (valid (row x0 b r)) (x0 (ix3 b r k) - center k (x0 (ix3 b r k))) Cert.Vox.zero := by
  refine (cat3_apply _ _ _ Gen.shapeCasts_S8x8192_S8x8192x1 Gen.concatenates_S8x8192x1_S8x8192x1_S8x8192x1_S8x8192x3_d2 b r k).trans ?_
  match k with
  | ⟨0, _⟩ => exact pay19_apply x0 b r
  | ⟨1, _⟩ => exact pay20_apply x0 b r
  | ⟨2, _⟩ => exact pay21_apply x0 b r

/-- A row's number: its place in the block plus the block's first row. -/
theorem rownum (tt : Nat) : IntOp.addi (BitVec.ofNat 32 r.val) (Scalar.muli (BitVec.ofNat 32 tt) 8192#32)
    = BitVec.ofNat 32 (tt * 8192 + r.val) := by
  show BitVec.ofNat 32 r.val + BitVec.ofNat 32 tt * 8192#32 = _
  rw [Nat.add_comm, BitVec.ofNat_add, BitVec.ofNat_mul]

/-- Stored to the third output: the row's number in the whole array, or -1. -/
theorem pay4_apply (tt : Nat) :
    k0_pay4 (BitVec.ofNat 32 tt) (mask x0) (ix2 b r)
    = Scalar.select (valid (row x0 b r)) (BitVec.ofNat 32 (tt * 8192 + r.val)) 4294967295#32 := by
  show Scalar.select (mask x0 (ix2 b r)) (IntOp.addi (iota .tc S8x8192 32 [1] _ (ix2 b r))
      (Scalar.muli (BitVec.ofNat 32 tt) 8192#32)) 4294967295#32 = _
  rw [mask_apply, iota_single_apply]
  exact congrArg (fun w => Scalar.select (valid (row x0 b r)) w 4294967295#32) (rownum r tt)

/-- Stored to the fifth output: the mask widened to a word. -/
theorem pay5_apply : k0_pay5 (mask x0) (ix2 b r) = (valid (row x0 b r)).setWidth 32 := by
  show (mask x0 (ix2 b r)).setWidth 32 = _
  rw [mask_apply]

/-! ## A block's row as a row of an array

When the block's row (b, r) is row n of an array `xp` of any row count, the five stored values at that row are the
specification's entries of `xp` at row n. -/

section Bridge
variable {N : Nat} (xp : (Cert.Vox.A3 N).Idx → EReal) (n : Fin N)

theorem row_eq (hx : ∀ k : Fin 3, x0 (ix3 b r k) = xp (ix3 b n k)) : row x0 b r = Cert.Vox.pt xp b n := funext hx

theorem out1_at (hx : ∀ k : Fin 3, x0 (ix3 b r k) = xp (ix3 b n k)) (k : Fin 3) :
    k0_pay1 (k0_pay11 x0) (k0_pay12 x0) (k0_pay13 x0) (mask x0) (k0_pay22 (F := Ideal)) (ix3 b r k)
    = Cert.Vox.outPts xp (ix3 b n k) := by
  rw [pay1_apply, row_eq x0 b r xp n hx, hx k]; rfl

theorem out2_at (hx : ∀ k : Fin 3, x0 (ix3 b r k) = xp (ix3 b n k)) (k : Fin 3) :
    k0_pay2 (k0_pay14 x0) (k0_pay15 x0) (k0_pay16 x0) (mask x0) (ix3 b r k) = Cert.Vox.coords xp (ix3 b n k) := by
  rw [pay2_apply, row_eq x0 b r xp n hx, hx k.rev]; rfl

theorem out4_at (hx : ∀ k : Fin 3, x0 (ix3 b r k) = xp (ix3 b n k)) (k : Fin 3) :
    k0_pay3 (k0_pay19 (k0_pay10 x0) (k0_pay11 x0) (k0_pay14 x0) (k0_pay15 x0) (k0_pay16 x0) (k0_pay17 x0) 0#32)
      (k0_pay20 (k0_pay10 x0) (k0_pay12 x0) (k0_pay15 x0) (k0_pay16 x0) (k0_pay17 x0) 0#32)
      (k0_pay21 (k0_pay10 x0) (k0_pay13 x0) (k0_pay15 x0) (k0_pay16 x0) (k0_pay17 x0) 0#32) (ix3 b r k)
    = Cert.Vox.offsets xp (ix3 b n k) := by
  rw [pay3_apply, row_eq x0 b r xp n hx, hx k]; rfl

theorem out3_at (hx : ∀ k : Fin 3, x0 (ix3 b r k) = xp (ix3 b n k)) (tt : Nat) (hn : n.val = tt * 8192 + r.val) :
    k0_pay4 (BitVec.ofNat 32 tt) (mask x0) (ix2 b r) = Cert.Vox.idxes xp (ix2 b n) := by
  rw [pay4_apply, row_eq x0 b r xp n hx, ← hn]; rfl

theorem out5_at (hx : ∀ k : Fin 3, x0 (ix3 b r k) = xp (ix3 b n k)) :
    k0_pay5 (mask x0) (ix2 b r) = (Cert.Vox.validA xp (ix2 b n)).setWidth 32 := by
  rw [pay5_apply, row_eq x0 b r xp n hx]; rfl

end Bridge

end Cert.KernelIdeal.KPoint

end
-- ==== Proof.KBlocks.lean ====
/-
  The five output arrays after the pipelined region, each as ONE function of the padded point array.

  The grid has 123 points; point t works on rows t·8192 … t·8192 + 8191 of every array (block index (0, t, 0), or
  (0, t) for the two per-row outputs). So the input block's entry (b, r, k) at point t is the padded array's entry
  (b, t·8192 + r, k), what point t writes back to an output is block t of the specification's function of the padded
  array (the per-point lemmas), every row lies in exactly the block of the point `row / 8192`, and the blocks cover
  each array: the array ends holding that function.
-/
import proofs.«122419_j8100308320786_1_alg».proof.Proof.KernelIdealFrameP
import proofs.«122419_j8100308320786_1_alg».proof.Proof.KPoint
import Idealize.ShloMosaic.Lib.Pipeline.Value

noncomputable section

namespace Cert.KernelIdeal.KBlocks

open Cert.KernelIdeal Cert.KernelIdeal.Gen Cert.KernelIdeal.GenP Cert.KernelIdeal.KPoint
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-- The padded point array as the region finds it. -/
abbrev xp : (Cert.Vox.A3 1007616).Idx → EReal := V m c main_v0

theorem zeros3 : (![0, 0, 0] : Fin 3 → Nat) = fun _ => 0 := funext fun a => by fin_cases a <;> rfl
theorem zeros2 : (![0, 0] : Fin 2 → Nat) = fun _ => 0 := funext fun a => by fin_cases a <;> rfl

/-- Every window's block index at point t is (0, t, 0), or (0, t): decided over the 123 points. -/
theorem block_index : ∀ t : Fin cfg0.N,
    (win0_0.index t (0 : Fin 3) = 0 ∧ win0_0.index t (1 : Fin 3) = t.val ∧ win0_0.index t (2 : Fin 3) = 0)
    ∧ (win0_1.index t (0 : Fin 3) = 0 ∧ win0_1.index t (1 : Fin 3) = t.val ∧ win0_1.index t (2 : Fin 3) = 0)
    ∧ (win0_2.index t (0 : Fin 3) = 0 ∧ win0_2.index t (1 : Fin 3) = t.val ∧ win0_2.index t (2 : Fin 3) = 0)
    ∧ (win0_3.index t (0 : Fin 2) = 0 ∧ win0_3.index t (1 : Fin 2) = t.val)
    ∧ (win0_4.index t (0 : Fin 3) = 0 ∧ win0_4.index t (1 : Fin 3) = t.val ∧ win0_4.index t (2 : Fin 3) = 0)
    ∧ (win0_5.index t (0 : Fin 2) = 0 ∧ win0_5.index t (1 : Fin 2) = t.val) :=
  (by decide +kernel : ∀ t : Fin grid0.N, _)

/-- The grid's one coordinate at point t is t. -/
theorem point_coord : ∀ t : Fin cfg0.N, (grid0.coords t (0 : Fin 1)).val = t.val :=
  (by decide +kernel : ∀ t : Fin grid0.N, _)

theorem point_lt (t : Fin cfg0.N) : t.val < 123 := lt_of_lt_of_eq t.isLt (show cfg0.N = 123 from N_0)

/-- The row of the whole array that row r of point t's block is. -/
abbrev rowOf (t : Fin cfg0.N) (r : Fin 8192) : Fin 1007616 := ⟨t.val * 8192 + r.val, by have := point_lt t; have := r.isLt; omega⟩

/-- The input block's entry (b, r, k) at point t is the padded array's entry (b, t·8192 + r, k). -/
theorem input_row (t : Fin cfg0.N) (b : Fin 8) (r : Fin 8192) (k : Fin 3) :
    (iblk m c 0 t : Vec Ideal S8x8192x3 .f32) (ix3 b r k) = xp m c (ix3 b (rowOf t r) k) := by
  show V m c main_v0 (((cfg0.win 0).blk t).view.emb (ix3 b r k)) = V m c main_v0 (ix3 b (rowOf t r) k)
  obtain ⟨⟨e0, e1, e2⟩, -⟩ := block_index t
  refine congrArg (V m c main_v0) (funext fun a => Fin.ext ?_)
  match a with
  | ⟨0, _⟩ => show win0_0.index t (0 : Fin 3) * 8 + 1 * b.val = b.val; omega
  | ⟨1, _⟩ => show win0_0.index t (1 : Fin 3) * 8192 + 1 * r.val = t.val * 8192 + r.val; omega
  | ⟨2, _⟩ => show win0_0.index t (2 : Fin 3) * 3 + 1 * k.val = k.val; omega

/-! ## Output window 1 -/

/-- What point t writes back to the first output is block t of the specification's points. -/
theorem writeback1 (t : Fin cfg0.N) :
    (dats m 0 c).flushed 1 t = ((cfg0.win 1).blk t).view.read (Elt Ideal) (Cert.Vox.outPts (xp m c)) := by
  show (cfg0.win 1).cut (grid0.coords t) ((dats m 0 c).after 1 t) = _
  rw [after0_1]
  unfold out0_1
  rw [View.canon_unit_zero zeros3]
  simp only [View.ld_unit_zero (S := S8x8192x3) zeros3]
  funext y
  obtain ⟨b, r, k, rfl⟩ : ∃ (b : Fin 8) (r : Fin 8192) (k : Fin 3), y = ix3 b r k := ⟨y 0, y 1, y 2, eq_ix3 y⟩
  have hemb : ((cfg0.win 1).blk t).view.emb (ix3 b r k) = (ix3 b (rowOf t r) k : (Cert.Vox.A3 1007616).Idx) := by
    obtain ⟨-, ⟨e0, e1, e2⟩, -⟩ := block_index t
    funext a; apply Fin.ext
    match a with
    | ⟨0, _⟩ => show win0_1.index t (0 : Fin 3) * 8 + 1 * b.val = b.val; omega
    | ⟨1, _⟩ => show win0_1.index t (1 : Fin 3) * 8192 + 1 * r.val = t.val * 8192 + r.val; omega
    | ⟨2, _⟩ => show win0_1.index t (2 : Fin 3) * 3 + 1 * k.val = k.val; omega
  refine Eq.trans ?_ (congrArg (Cert.Vox.outPts (xp m c)) hemb.symm)
  exact out1_at (iblk m c 0 t) b r (xp m c) (rowOf t r) (fun k' => input_row m c t b r k') k

/-- An index is in point t's block iff each coordinate is in the block's range on its axis. -/
theorem in_block1 (t : Fin cfg0.N) (i : S8x1007616x3.Idx) :
    i ∈ ((cfg0.win 1).blk t).view.set ↔ ∀ a : Fin 3, win0_1.index t a * S8x8192x3.size a ≤ (i a).val ∧ (i a).val < win0_1.index t a * S8x8192x3.size a + S8x8192x3.size a := by
  show i ∈ ((View.whole main_v1_0).slice (win0_1.rect t)).set ↔ _
  rw [View.set_slice_whole, Rect.mem_set_unit]
  exact Iff.rfl

/-- Every index lies in the block of the point `row / 8192`. -/
theorem rows_covered1 (i : S8x1007616x3.Idx) : ∃ t : Fin cfg0.N, (cfg0.win 1).flush t = true ∧ i ∈ ((cfg0.win 1).blk t).view.set := by
  have hi0 : (i 0).val < 8 := (i 0).isLt
  have hi1 : (i 1).val < 1007616 := (i 1).isLt
  have hi2 : (i 2).val < 3 := (i 2).isLt
  have hN : cfg0.N = 123 := N_0
  obtain ⟨t, ht⟩ : ∃ t : Fin cfg0.N, t.val = (i 1).val / 8192 := ⟨⟨(i 1).val / 8192, by rw [hN]; omega⟩, rfl⟩
  obtain ⟨-, ⟨e0, e1, e2⟩, -⟩ := block_index t
  refine ⟨t, flush0_1 t, ?_⟩
  rw [in_block1]
  intro a
  match a with
  | ⟨0, _⟩ => show win0_1.index t (0 : Fin 3) * 8 ≤ (i 0).val ∧ (i 0).val < win0_1.index t (0 : Fin 3) * 8 + 8; omega
  | ⟨1, _⟩ => show win0_1.index t (1 : Fin 3) * 8192 ≤ (i 1).val ∧ (i 1).val < win0_1.index t (1 : Fin 3) * 8192 + 8192; omega
  | ⟨2, _⟩ => show win0_1.index t (2 : Fin 3) * 3 ≤ (i 2).val ∧ (i 2).val < win0_1.index t (2 : Fin 3) * 3 + 3; omega

/-- The array after the region. -/
theorem final1 : (dats m 0 c).arrAt 1 cfg0.N = Cert.Vox.outPts (xp m c) :=
  (dats m 0 c).arrAt_eq_of_cover 1 (Cert.Vox.outPts (xp m c)) (fun t _ => writeback1 m c t) (rows_covered1)

/-! ## Output window 2 -/

/-- What point t writes back to the second output is block t of the specification's voxel coordinates. -/
theorem writeback2 (t : Fin cfg0.N) :
    (dats m 0 c).flushed 2 t = ((cfg0.win 2).blk t).view.read (Elt Ideal) (Cert.Vox.coords (xp m c)) := by
  show (cfg0.win 2).cut (grid0.coords t) ((dats m 0 c).after 2 t) = _
  rw [after0_2]
  unfold out0_2
  rw [View.canon_unit_zero zeros3]
  simp only [View.ld_unit_zero (S := S8x8192x3) zeros3]
  funext y
  obtain ⟨b, r, k, rfl⟩ : ∃ (b : Fin 8) (r : Fin 8192) (k : Fin 3), y = ix3 b r k := ⟨y 0, y 1, y 2, eq_ix3 y⟩
  have hemb : ((cfg0.win 2).blk t).view.emb (ix3 b r k) = (ix3 b (rowOf t r) k : (Cert.Vox.A3 1007616).Idx) := by
    obtain ⟨-, -, ⟨e0, e1, e2⟩, -⟩ := block_index t
    funext a; apply Fin.ext
    match a with
    | ⟨0, _⟩ => show win0_2.index t (0 : Fin 3) * 8 + 1 * b.val = b.val; omega
    | ⟨1, _⟩ => show win0_2.index t (1 : Fin 3) * 8192 + 1 * r.val = t.val * 8192 + r.val; omega
    | ⟨2, _⟩ => show win0_2.index t (2 : Fin 3) * 3 + 1 * k.val = k.val; omega
  refine Eq.trans ?_ (congrArg (Cert.Vox.coords (xp m c)) hemb.symm)
  exact out2_at (iblk m c 0 t) b r (xp m c) (rowOf t r) (fun k' => input_row m c t b r k') k

/-- An index is in point t's block iff each coordinate is in the block's range on its axis. -/
theorem in_block2 (t : Fin cfg0.N) (i : S8x1007616x3.Idx) :
    i ∈ ((cfg0.win 2).blk t).view.set ↔ ∀ a : Fin 3, win0_2.index t a * S8x8192x3.size a ≤ (i a).val ∧ (i a).val < win0_2.index t a * S8x8192x3.size a + S8x8192x3.size a := by
  show i ∈ ((View.whole main_v1_1).slice (win0_2.rect t)).set ↔ _
  rw [View.set_slice_whole, Rect.mem_set_unit]
  exact Iff.rfl

/-- Every index lies in the block of the point `row / 8192`. -/
theorem rows_covered2 (i : S8x1007616x3.Idx) : ∃ t : Fin cfg0.N, (cfg0.win 2).flush t = true ∧ i ∈ ((cfg0.win 2).blk t).view.set := by
  have hi0 : (i 0).val < 8 := (i 0).isLt
  have hi1 : (i 1).val < 1007616 := (i 1).isLt
  have hi2 : (i 2).val < 3 := (i 2).isLt
  have hN : cfg0.N = 123 := N_0
  obtain ⟨t, ht⟩ : ∃ t : Fin cfg0.N, t.val = (i 1).val / 8192 := ⟨⟨(i 1).val / 8192, by rw [hN]; omega⟩, rfl⟩
  obtain ⟨-, -, ⟨e0, e1, e2⟩, -⟩ := block_index t
  refine ⟨t, flush0_2 t, ?_⟩
  rw [in_block2]
  intro a
  match a with
  | ⟨0, _⟩ => show win0_2.index t (0 : Fin 3) * 8 ≤ (i 0).val ∧ (i 0).val < win0_2.index t (0 : Fin 3) * 8 + 8; omega
  | ⟨1, _⟩ => show win0_2.index t (1 : Fin 3) * 8192 ≤ (i 1).val ∧ (i 1).val < win0_2.index t (1 : Fin 3) * 8192 + 8192; omega
  | ⟨2, _⟩ => show win0_2.index t (2 : Fin 3) * 3 ≤ (i 2).val ∧ (i 2).val < win0_2.index t (2 : Fin 3) * 3 + 3; omega

/-- The array after the region. -/
theorem final2 : (dats m 0 c).arrAt 2 cfg0.N = Cert.Vox.coords (xp m c) :=
  (dats m 0 c).arrAt_eq_of_cover 2 (Cert.Vox.coords (xp m c)) (fun t _ => writeback2 m c t) (rows_covered2)

/-! ## Output window 3 -/

/-- What point t writes back to the third output is block t of the specification's row numbers. -/
theorem writeback3 (t : Fin cfg0.N) :
    (dats m 0 c).flushed 3 t = ((cfg0.win 3).blk t).view.read (Elt Ideal) (Cert.Vox.idxes (xp m c)) := by
  show (cfg0.win 3).cut (grid0.coords t) ((dats m 0 c).after 3 t) = _
  rw [after0_3]
  unfold out0_3
  rw [View.canon_unit_zero zeros2]
  simp only [View.ld_unit_zero (S := S8x8192x3) zeros3]
  funext y
  obtain ⟨b, r, rfl⟩ : ∃ (b : Fin 8) (r : Fin 8192), y = ix2 b r := ⟨y 0, y 1, eq_ix2 y⟩
  have hemb : ((cfg0.win 3).blk t).view.emb (ix2 b r) = (ix2 b (rowOf t r) : (Cert.Vox.A2 1007616).Idx) := by
    obtain ⟨-, -, -, ⟨e0, e1⟩, -⟩ := block_index t
    funext a; apply Fin.ext
    match a with
    | ⟨0, _⟩ => show win0_3.index t (0 : Fin 2) * 8 + 1 * b.val = b.val; omega
    | ⟨1, _⟩ => show win0_3.index t (1 : Fin 2) * 8192 + 1 * r.val = t.val * 8192 + r.val; omega
  refine Eq.trans ?_ (congrArg (Cert.Vox.idxes (xp m c)) hemb.symm)
  exact out3_at (iblk m c 0 t) b r (xp m c) (rowOf t r) (fun k' => input_row m c t b r k') (grid0.coords t (0 : Fin 1)).val (by rw [point_coord t])

/-- An index is in point t's block iff each coordinate is in the block's range on its axis. -/
theorem in_block3 (t : Fin cfg0.N) (i : S8x1007616.Idx) :
    i ∈ ((cfg0.win 3).blk t).view.set ↔ ∀ a : Fin 2, win0_3.index t a * S8x8192.size a ≤ (i a).val ∧ (i a).val < win0_3.index t a * S8x8192.size a + S8x8192.size a := by
  show i ∈ ((View.whole main_v1_2).slice (win0_3.rect t)).set ↔ _
  rw [View.set_slice_whole, Rect.mem_set_unit]
  exact Iff.rfl

/-- Every index lies in the block of the point `row / 8192`. -/
theorem rows_covered3 (i : S8x1007616.Idx) : ∃ t : Fin cfg0.N, (cfg0.win 3).flush t = true ∧ i ∈ ((cfg0.win 3).blk t).view.set := by
  have hi0 : (i 0).val < 8 := (i 0).isLt
  have hi1 : (i 1).val < 1007616 := (i 1).isLt
  have hN : cfg0.N = 123 := N_0
  obtain ⟨t, ht⟩ : ∃ t : Fin cfg0.N, t.val = (i 1).val / 8192 := ⟨⟨(i 1).val / 8192, by rw [hN]; omega⟩, rfl⟩
  obtain ⟨-, -, -, ⟨e0, e1⟩, -⟩ := block_index t
  refine ⟨t, flush0_3 t, ?_⟩
  rw [in_block3]
  intro a
  match a with
  | ⟨0, _⟩ => show win0_3.index t (0 : Fin 2) * 8 ≤ (i 0).val ∧ (i 0).val < win0_3.index t (0 : Fin 2) * 8 + 8; omega
  | ⟨1, _⟩ => show win0_3.index t (1 : Fin 2) * 8192 ≤ (i 1).val ∧ (i 1).val < win0_3.index t (1 : Fin 2) * 8192 + 8192; omega

/-- The array after the region. -/
theorem final3 : (dats m 0 c).arrAt 3 cfg0.N = Cert.Vox.idxes (xp m c) :=
  (dats m 0 c).arrAt_eq_of_cover 3 (Cert.Vox.idxes (xp m c)) (fun t _ => writeback3 m c t) (rows_covered3)

/-! ## Output window 4 -/

/-- What point t writes back to the fourth output is block t of the specification's offsets. -/
theorem writeback4 (t : Fin cfg0.N) :
    (dats m 0 c).flushed 4 t = ((cfg0.win 4).blk t).view.read (Elt Ideal) (Cert.Vox.offsets (xp m c)) := by
  show (cfg0.win 4).cut (grid0.coords t) ((dats m 0 c).after 4 t) = _
  rw [after0_4]
  unfold out0_4
  rw [View.canon_unit_zero zeros3]
  simp only [View.ld_unit_zero (S := S8x8192x3) zeros3]
  funext y
  obtain ⟨b, r, k, rfl⟩ : ∃ (b : Fin 8) (r : Fin 8192) (k : Fin 3), y = ix3 b r k := ⟨y 0, y 1, y 2, eq_ix3 y⟩
  have hemb : ((cfg0.win 4).blk t).view.emb (ix3 b r k) = (ix3 b (rowOf t r) k : (Cert.Vox.A3 1007616).Idx) := by
    obtain ⟨-, -, -, -, ⟨e0, e1, e2⟩, -⟩ := block_index t
    funext a; apply Fin.ext
    match a with
    | ⟨0, _⟩ => show win0_4.index t (0 : Fin 3) * 8 + 1 * b.val = b.val; omega
    | ⟨1, _⟩ => show win0_4.index t (1 : Fin 3) * 8192 + 1 * r.val = t.val * 8192 + r.val; omega
    | ⟨2, _⟩ => show win0_4.index t (2 : Fin 3) * 3 + 1 * k.val = k.val; omega
  refine Eq.trans ?_ (congrArg (Cert.Vox.offsets (xp m c)) hemb.symm)
  exact out4_at (iblk m c 0 t) b r (xp m c) (rowOf t r) (fun k' => input_row m c t b r k') k

/-- An index is in point t's block iff each coordinate is in the block's range on its axis. -/
theorem in_block4 (t : Fin cfg0.N) (i : S8x1007616x3.Idx) :
    i ∈ ((cfg0.win 4).blk t).view.set ↔ ∀ a : Fin 3, win0_4.index t a * S8x8192x3.size a ≤ (i a).val ∧ (i a).val < win0_4.index t a * S8x8192x3.size a + S8x8192x3.size a := by
  show i ∈ ((View.whole main_v1_3).slice (win0_4.rect t)).set ↔ _
  rw [View.set_slice_whole, Rect.mem_set_unit]
  exact Iff.rfl

/-- Every index lies in the block of the point `row / 8192`. -/
theorem rows_covered4 (i : S8x1007616x3.Idx) : ∃ t : Fin cfg0.N, (cfg0.win 4).flush t = true ∧ i ∈ ((cfg0.win 4).blk t).view.set := by
  have hi0 : (i 0).val < 8 := (i 0).isLt
  have hi1 : (i 1).val < 1007616 := (i 1).isLt
  have hi2 : (i 2).val < 3 := (i 2).isLt
  have hN : cfg0.N = 123 := N_0
  obtain ⟨t, ht⟩ : ∃ t : Fin cfg0.N, t.val = (i 1).val / 8192 := ⟨⟨(i 1).val / 8192, by rw [hN]; omega⟩, rfl⟩
  obtain ⟨-, -, -, -, ⟨e0, e1, e2⟩, -⟩ := block_index t
  refine ⟨t, flush0_4 t, ?_⟩
  rw [in_block4]
  intro a
  match a with
  | ⟨0, _⟩ => show win0_4.index t (0 : Fin 3) * 8 ≤ (i 0).val ∧ (i 0).val < win0_4.index t (0 : Fin 3) * 8 + 8; omega
  | ⟨1, _⟩ => show win0_4.index t (1 : Fin 3) * 8192 ≤ (i 1).val ∧ (i 1).val < win0_4.index t (1 : Fin 3) * 8192 + 8192; omega
  | ⟨2, _⟩ => show win0_4.index t (2 : Fin 3) * 3 ≤ (i 2).val ∧ (i 2).val < win0_4.index t (2 : Fin 3) * 3 + 3; omega

/-- The array after the region. -/
theorem final4 : (dats m 0 c).arrAt 4 cfg0.N = Cert.Vox.offsets (xp m c) :=
  (dats m 0 c).arrAt_eq_of_cover 4 (Cert.Vox.offsets (xp m c)) (fun t _ => writeback4 m c t) (rows_covered4)

/-! ## Output window 5 -/

/-- What point t writes back to the fifth output is block t of the specification's mask, widened to a word. -/
theorem writeback5 (t : Fin cfg0.N) :
    (dats m 0 c).flushed 5 t = ((cfg0.win 5).blk t).view.read (Elt Ideal) ((fun j => (Cert.Vox.validA (xp m c) j).setWidth 32)) := by
  show (cfg0.win 5).cut (grid0.coords t) ((dats m 0 c).after 5 t) = _
  rw [after0_5]
  unfold out0_5
  rw [View.canon_unit_zero zeros2]
  simp only [View.ld_unit_zero (S := S8x8192x3) zeros3]
  funext y
  obtain ⟨b, r, rfl⟩ : ∃ (b : Fin 8) (r : Fin 8192), y = ix2 b r := ⟨y 0, y 1, eq_ix2 y⟩
  have hemb : ((cfg0.win 5).blk t).view.emb (ix2 b r) = (ix2 b (rowOf t r) : (Cert.Vox.A2 1007616).Idx) := by
    obtain ⟨-, -, -, -, -, ⟨e0, e1⟩⟩ := block_index t
    funext a; apply Fin.ext
    match a with
    | ⟨0, _⟩ => show win0_5.index t (0 : Fin 2) * 8 + 1 * b.val = b.val; omega
    | ⟨1, _⟩ => show win0_5.index t (1 : Fin 2) * 8192 + 1 * r.val = t.val * 8192 + r.val; omega
  refine Eq.trans ?_ (congrArg ((fun j => (Cert.Vox.validA (xp m c) j).setWidth 32)) hemb.symm)
  exact out5_at (iblk m c 0 t) b r (xp m c) (rowOf t r) (fun k' => input_row m c t b r k')

/-- An index is in point t's block iff each coordinate is in the block's range on its axis. -/
theorem in_block5 (t : Fin cfg0.N) (i : S8x1007616.Idx) :
    i ∈ ((cfg0.win 5).blk t).view.set ↔ ∀ a : Fin 2, win0_5.index t a * S8x8192.size a ≤ (i a).val ∧ (i a).val < win0_5.index t a * S8x8192.size a + S8x8192.size a := by
  show i ∈ ((View.whole main_v1_4).slice (win0_5.rect t)).set ↔ _
  rw [View.set_slice_whole, Rect.mem_set_unit]
  exact Iff.rfl

/-- Every index lies in the block of the point `row / 8192`. -/
theorem rows_covered5 (i : S8x1007616.Idx) : ∃ t : Fin cfg0.N, (cfg0.win 5).flush t = true ∧ i ∈ ((cfg0.win 5).blk t).view.set := by
  have hi0 : (i 0).val < 8 := (i 0).isLt
  have hi1 : (i 1).val < 1007616 := (i 1).isLt
  have hN : cfg0.N = 123 := N_0
  obtain ⟨t, ht⟩ : ∃ t : Fin cfg0.N, t.val = (i 1).val / 8192 := ⟨⟨(i 1).val / 8192, by rw [hN]; omega⟩, rfl⟩
  obtain ⟨-, -, -, -, -, ⟨e0, e1⟩⟩ := block_index t
  refine ⟨t, flush0_5 t, ?_⟩
  rw [in_block5]
  intro a
  match a with
  | ⟨0, _⟩ => show win0_5.index t (0 : Fin 2) * 8 ≤ (i 0).val ∧ (i 0).val < win0_5.index t (0 : Fin 2) * 8 + 8; omega
  | ⟨1, _⟩ => show win0_5.index t (1 : Fin 2) * 8192 ≤ (i 1).val ∧ (i 1).val < win0_5.index t (1 : Fin 2) * 8192 + 8192; omega

/-- The array after the region. -/
theorem final5 : (dats m 0 c).arrAt 5 cfg0.N = (fun j => (Cert.Vox.validA (xp m c) j).setWidth 32) :=
  (dats m 0 c).arrAt_eq_of_cover 5 ((fun j => (Cert.Vox.validA (xp m c) j).setWidth 32)) (fun t _ => writeback5 m c t) (rows_covered5)

end Cert.KernelIdeal.KBlocks

end
-- ==== Proof.KTail.lean ====
/-
  The kernel program's run, its five results stated by the specification.

  The program lengthens the point array by 7616 rows of a filler value, computes five arrays over the lengthened
  array, and cuts each back to the first 1000000 rows; the last one, a 32-bit copy of the per-row mask, it then
  compares with the zero word. The five arrays over the lengthened array are the specification's functions of it;
  the lengthened array agrees with the argument on the argument's rows, and every specification function at a row
  depends only on that row; so the five results are the specification's functions of the argument.
-/
import proofs.«122419_j8100308320786_1_alg».proof.Proof.KernelIdealFrameP
import proofs.«122419_j8100308320786_1_alg».proof.Proof.Spec
import proofs.«122419_j8100308320786_1_alg».proof.Proof.KTailPure
import proofs.«122419_j8100308320786_1_alg».proof.Proof.KBlocks
import Idealize.ShloMosaic.Lib.IdealHost

noncomputable section

namespace Cert.KernelIdeal.KTail

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

section Tail

variable (m : (ℓ : Loc nD τ sig) → Buf (Elt Ideal) ℓ) (c : Dev nD)

/-- The argument array. -/
abbrev x0 : (Cert.Vox.A3 1000000).Idx → EReal := m ((c.tc : Thread nD τ).loc main_arg0)

/-- The lengthened array, as the region finds it. -/
abbrev xp : (Cert.Vox.A3 1007616).Idx → EReal := GenP.V m c main_v0

/-- The lengthened array is the argument padded at the end of its row axis. -/
theorem xp_eq : xp m c = pad S8x1007616x3 ![0, 0, 0] ![0, 7616, 0] ![0, 0, 0] (x0 m c)
    (id (constant (F := Ideal) S_ .f32 0x7FC00000#32)) Facts₀.pads_S8x1000000x3_S8x1007616x3_000_076160_000 Facts₀.h_S_ := by
  dsimp only [xp, GenP.V, GenP.V0]
  simp only [Gen.hostOps0, Gen.hostOps0_1, List.flatten_cons, List.flatten_nil, List.append_nil, List.cons_append,
    List.nil_append]
  after_results
  rfl

/-- So it agrees with the argument on the argument's rows. -/
theorem extends_xp : Extends (xp m c) (x0 m c) := by
  rw [xp_eq]
  exact pad_extends _ _ _ _

/-! ### The five arrays after the region, as the host lines after it find them -/

theorem arr1 : (Pipeline.withArrays (cfgs 0).spec c (GenP.V0 m c) (fun w => (GenP.dats m 0 c).arrAt w (cfgs 0).N)
    (Proc.devRef .tc main_v1_0) : (Cert.Vox.A3 1007616).Idx → EReal) = Cert.Vox.outPts (xp m c) :=
  (Pipeline.withArrays_arr spec0 launch0.win.arr_inj c _ _ 1).trans (KBlocks.final1 m c)

theorem arr2 : (Pipeline.withArrays (cfgs 0).spec c (GenP.V0 m c) (fun w => (GenP.dats m 0 c).arrAt w (cfgs 0).N)
    (Proc.devRef .tc main_v1_1) : (Cert.Vox.A3 1007616).Idx → BitVec 32) = Cert.Vox.coords (xp m c) :=
  (Pipeline.withArrays_arr spec0 launch0.win.arr_inj c _ _ 2).trans (KBlocks.final2 m c)

theorem arr3 : (Pipeline.withArrays (cfgs 0).spec c (GenP.V0 m c) (fun w => (GenP.dats m 0 c).arrAt w (cfgs 0).N)
    (Proc.devRef .tc main_v1_2) : (Cert.Vox.A2 1007616).Idx → BitVec 32) = Cert.Vox.idxes (xp m c) :=
  (Pipeline.withArrays_arr spec0 launch0.win.arr_inj c _ _ 3).trans (KBlocks.final3 m c)

theorem arr4 : (Pipeline.withArrays (cfgs 0).spec c (GenP.V0 m c) (fun w => (GenP.dats m 0 c).arrAt w (cfgs 0).N)
    (Proc.devRef .tc main_v1_3) : (Cert.Vox.A3 1007616).Idx → EReal) = Cert.Vox.offsets (xp m c) :=
  (Pipeline.withArrays_arr spec0 launch0.win.arr_inj c _ _ 4).trans (KBlocks.final4 m c)

theorem arr5 : (Pipeline.withArrays (cfgs 0).spec c (GenP.V0 m c) (fun w => (GenP.dats m 0 c).arrAt w (cfgs 0).N)
    (Proc.devRef .tc main_v1_4) : (Cert.Vox.A2 1007616).Idx → BitVec 32)
    = fun j => (Cert.Vox.validA (xp m c) j).setWidth 32 :=
  (Pipeline.withArrays_arr spec0 launch0.win.arr_inj c _ _ 5).trans (KBlocks.final5 m c)

/-! ### The five results after the cut -/

theorem tail_v2 : Pipeline.afterTail₀ cfgs (GenP.dats m) 0 (GenP.V0 m) [hostOps1] c main_v2
    = Cert.Vox.outPts (x0 m c) := by
  unfold Pipeline.afterTail₀
  show StableHlo.after hostOps1 _ (Proc.devRef .tc main_v2) = _
  after_results
  refine (congrArg (fun y : (Cert.Vox.A3 1007616).Idx → EReal =>
      extractStridedSlice S8x1000000x3 ![0, 0, 0] y Facts₀.slices_S8x1007616x3_S8x1000000x3_0_0_0)
    (arr1 m c)).trans ?_
  exact slice_outPts (extends_xp m c) _

theorem tail_v3 : Pipeline.afterTail₀ cfgs (GenP.dats m) 0 (GenP.V0 m) [hostOps1] c main_v3
    = Cert.Vox.coords (x0 m c) := by
  unfold Pipeline.afterTail₀
  show StableHlo.after hostOps1 _ (Proc.devRef .tc main_v3) = _
  after_results
  refine (congrArg (fun y : (Cert.Vox.A3 1007616).Idx → BitVec 32 =>
      extractStridedSlice S8x1000000x3 ![0, 0, 0] y Facts₀.slices_S8x1007616x3_S8x1000000x3_0_0_0)
    (arr2 m c)).trans ?_
  exact slice_coords (extends_xp m c) _

theorem tail_v4 : Pipeline.afterTail₀ cfgs (GenP.dats m) 0 (GenP.V0 m) [hostOps1] c main_v4
    = Cert.Vox.idxes (x0 m c) := by
  unfold Pipeline.afterTail₀
  show StableHlo.after hostOps1 _ (Proc.devRef .tc main_v4) = _
  after_results
  refine (congrArg (fun y : (Cert.Vox.A2 1007616).Idx → BitVec 32 =>
      extractStridedSlice S8x1000000 ![0, 0] y Facts₀.slices_S8x1007616_S8x1000000_0_0)
    (arr3 m c)).trans ?_
  exact slice_idxes (extends_xp m c) _

theorem tail_v5 : Pipeline.afterTail₀ cfgs (GenP.dats m) 0 (GenP.V0 m) [hostOps1] c main_v5
    = Cert.Vox.offsets (x0 m c) := by
  unfold Pipeline.afterTail₀
  show StableHlo.after hostOps1 _ (Proc.devRef .tc main_v5) = _
  after_results
  refine (congrArg (fun y : (Cert.Vox.A3 1007616).Idx → EReal =>
      extractStridedSlice S8x1000000x3 ![0, 0, 0] y Facts₀.slices_S8x1007616x3_S8x1000000x3_0_0_0)
    (arr4 m c)).trans ?_
  exact slice_offsets (extends_xp m c) _

/-- The mask: the 32-bit copy cut back, then compared with the zero word. -/
theorem tail_v9 : Pipeline.afterTail₀ cfgs (GenP.dats m) 0 (GenP.V0 m) [hostOps1] c main_v9
    = Cert.Vox.validA (x0 m c) := by
  unfold Pipeline.afterTail₀
  show StableHlo.after hostOps1 _ (Proc.devRef .tc main_v9) = _
  after_results
  simp only [id_eq]
  refine (congrArg (fun y : (Cert.Vox.A2 1007616).Idx → BitVec 32 =>
      cmpi .ne (extractStridedSlice S8x1000000 ![0, 0] y Facts₀.slices_S8x1007616_S8x1000000_0_0)
        (broadcastInDim S8x1000000 ![] Facts₀.bcast_S_S8x1000000 (constantI S_ 32 0#32)))
    (arr5 m c)).trans ?_
  exact slice_mask (extends_xp m c) _ _ (fun j => broadcastInDim_scalar_apply _ _ j)

end Tail

/-! ### The run -/

/-- Every execution of the program ends with the five results at the specification's functions of the argument, and
    the argument as it was. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      (r.2.mem ((c.tc : Thread nD τ).loc main_v2) = Cert.Vox.outPts (N := 1000000) (m ((c.tc : Thread nD τ).loc main_arg0))
       ∧ r.2.mem ((c.tc : Thread nD τ).loc main_v3) = Cert.Vox.coords (N := 1000000) (m ((c.tc : Thread nD τ).loc main_arg0))
       ∧ r.2.mem ((c.tc : Thread nD τ).loc main_v4) = Cert.Vox.idxes (N := 1000000) (m ((c.tc : Thread nD τ).loc main_arg0))
       ∧ r.2.mem ((c.tc : Thread nD τ).loc main_v5) = Cert.Vox.offsets (N := 1000000) (m ((c.tc : Thread nD τ).loc main_arg0))
       ∧ r.2.mem ((c.tc : Thread nD τ).loc main_v9) = Cert.Vox.validA (N := 1000000) (m ((c.tc : Thread nD τ).loc main_arg0)))
      ∧ r.2.mem ((c.tc : Thread nD τ).loc main_arg0) = m ((c.tc : Thread nD τ).loc main_arg0)) :=
  (θ_run defs _ _).mono (fun r h c =>
    ⟨⟨((h c).2 main_v2 (Pipeline.mem_restRefs_of main_v2 (by decide) (by decide))).trans (tail_v2 m c),
      ((h c).2 main_v3 (Pipeline.mem_restRefs_of main_v3 (by decide) (by decide))).trans (tail_v3 m c),
      ((h c).2 main_v4 (Pipeline.mem_restRefs_of main_v4 (by decide) (by decide))).trans (tail_v4 m c),
      ((h c).2 main_v5 (Pipeline.mem_restRefs_of main_v5 (by decide) (by decide))).trans (tail_v5 m c),
      ((h c).2 main_v9 (Pipeline.mem_restRefs_of main_v9 (by decide) (by decide))).trans (tail_v9 m c)⟩,
     ((h c).2 main_arg0 (Pipeline.mem_restRefs_of main_arg0 (by decide) (by decide))).trans
       (GenP.W_main_arg0 m (GenP.dats m) c)⟩)
    (GenP.run_main m ρ)

end Cert.KernelIdeal.KTail

end
-- ==== Proof.RefTerms.lean ====
/-
  The reference's five results as pure terms of its argument array, one definition per named intermediate of its
  text, at any float instance: the edge and range constants, the mask of rows without a NaN, the cleaned points, the
  voxel coordinates, the in-grid mask, and the five masked results.
-/
import proofs.«122419_j8100308320786_1_alg».proof.ReferenceIdeal

noncomputable section

namespace Cert.ReferenceIdeal.Terms

open Idealize.ShloMosaic Cert.ReferenceIdeal

variable {F : FTy → Type} [FloatOps F] [Cert.ReferenceIdeal.Facts]
open Facts₀ Facts

/-- The voxel's edge, three times. -/
def vs3 : FVec F S3 .f32 := constant S3 .f32 0x3E4CCCCD#32
/-- The range: the three lower corners, then the three upper ones. -/
def pcr : FVec F S6 .f32 := fun i => FloatOps.ofBits .f32 (lit0 (S6.rowMajor i))
def lo3 : FVec F S3 .f32 := extractStridedSlice S3 ![0] (pcr (F := F)) slices_S6_S3_0
def hi3 : FVec F S3 .f32 := extractStridedSlice S3 ![3] (pcr (F := F)) slices_S6_S3_3
/-- The number of voxels along each axis: the range over the edge, rounded to the nearest integer. -/
def grid3 : IVec S3 32 := fptosi 32 (Host.roundeven (Host.divf (subf (hi3 (F := F)) (lo3 (F := F))) (vs3 (F := F))))

/-- A per-row mask over the three coordinates of its row. -/
def up1 (v : IVec S8x1000000 1) : IVec S8x1000000x3 1 :=
  broadcastInDim S8x1000000x3 ![0, 1, 2] bcast_S8x1000000x1_S8x1000000x3_0_1_2
    (broadcastInDim S8x1000000x1 ![0, 1] bcast_S8x1000000_S8x1000000x1_0_1 v)
/-- A per-axis triple over every row. -/
def up3 {α : Type} (v : S3.Idx → α) : S8x1000000x3.Idx → α :=
  broadcastInDim S8x1000000x3 ![0, 1, 2] bcast_S1x1x3_S8x1000000x3_0_1_2 (broadcastInDim S1x1x3 ![2] bcast_S3_S1x1x3_2 v)
def zeroF : FVec F S8x1000000x3 .f32 :=
  broadcastInDim S8x1000000x3 ![] bcast_S_S8x1000000x3 (id (constant (F := F) S_ .f32 0x00000000#32))
def minusOne3 : IVec S8x1000000x3 32 :=
  broadcastInDim S8x1000000x3 ![] bcast_S_S8x1000000x3 (id (constantI S_ 32 4294967295#32))

variable (x : FVec F S8x1000000x3 .f32)

/-- Rows none of whose coordinates is a NaN. -/
def notNan : IVec S8x1000000 1 :=
  noti (Host.reduce IntOp.ori (cmpf .une x x) (constantI S_ 1 0#1) reducesTo_S8x1000000x3_S8x1000000_d2 h_S_)
/-- The points, a row with a NaN replaced by zeros. -/
def pts : FVec F S8x1000000x3 .f32 := select (up1 (notNan x)) x (zeroF (F := F))
/-- The voxel coordinates, in the order (x, y, z). -/
def cells : IVec S8x1000000x3 32 :=
  fptosi 32 (Host.floor (Host.divf (subf (pts x) (up3 (lo3 (F := F)))) (up3 (vs3 (F := F)))))
/-- Rows whose three voxel coordinates are inside the grid. -/
def inGrid : IVec S8x1000000 1 :=
  Host.reduce IntOp.andi
    (andi (cmpi .sge (cells x) (broadcastInDim S8x1000000x3 ![] bcast_S_S8x1000000x3 (constantI S_ 32 0#32)))
      (cmpi .slt (cells x) (up3 (grid3 (F := F)))))
    (constantI S_ 1 1#1) reducesTo_S8x1000000x3_S8x1000000_d2 h_S_
def valid : IVec S8x1000000 1 := andi (notNan x) (inGrid x)
/-- The voxel coordinates in the order (z, y, x), -1 on an invalid row. -/
def coords : IVec S8x1000000x3 32 := select (up1 (valid x)) (Host.reverse [2] (cells x)) minusOne3
/-- The voxels' centres. -/
def centers : FVec F S8x1000000x3 .f32 :=
  addf (addf (mulf (sitofp .f32 (cells x)) (up3 (vs3 (F := F)))) (up3 (lo3 (F := F))))
    (up3 (Host.divf (vs3 (F := F)) (broadcastInDim S3 ![] bcast_S_S3 (constant (F := F) S_ .f32 0x40000000#32))))
def offsets : FVec F S8x1000000x3 .f32 := select (up1 (valid x)) (subf (pts x) (centers x)) (zeroF (F := F))
def outPts : FVec F S8x1000000x3 .f32 := select (up1 (valid x)) (pts x) (zeroF (F := F))
def idxes : IVec S8x1000000 32 :=
  select (valid x)
    (broadcastInDim S8x1000000 ![0, 1] bcast_S1x1000000_S8x1000000_0_1
      (broadcastInDim S1x1000000 ![1] bcast_S1000000_S1x1000000_1 (iotaInDim S1000000 32 0)))
    (broadcastInDim S8x1000000 ![] bcast_S_S8x1000000 (id (constantI S_ 32 4294967295#32)))

end Cert.ReferenceIdeal.Terms

end
-- ==== Proof.RefRun.lean ====
/-
  The reference's run. Its text is a straight line of tensor operations once each outlined helper (the rounding of the
  grid's extents, and the five masked selections) is read at its call site over that call's own buffers: seventy-seven
  operations in all. Running them in order from any memory leaves each of the five results at the composed term of the
  argument array that `Terms` names, and the argument array as it was.

  The line is read in two parts. The first thirty-seven operations compute the constants, the cleaned points, the voxel
  coordinates and the validity mask: what they leave is `Terms.vs3`, `Terms.lo3`, `Terms.pts`, `Terms.cells` and
  `Terms.valid`. The other forty compute each masked result from those five buffers alone, whatever they hold. The
  reductions along the coordinate axis are compared as wholes throughout, never opened.
-/
import proofs.«122419_j8100308320786_1_alg».proof.Proof.RefTerms
import Idealize.ShloMosaic.Lib.StableHlo.Run

set_option Elab.async false

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Cert.ReferenceIdeal.Facts]
open Facts₀ Facts

/-- The seventy-seven operations, in order; a helper's operations stand where it is called, over that call's buffers. -/
abbrev ops : List (HloOp τ sig (Elt F)) :=
  [ nullary main_cst (constant S3 .f32 0x3E4CCCCD#32),
    nullary main_cst_0 (fun i => FloatOps.ofBits .f32 (lit0 (S6.rowMajor i))),
    unary main_cst_0 main_v0 ((extractStridedSlice S3 ![0] · slices_S6_S3_0) : (⟨S6, .f32⟩ : BufTy).Contents (Elt F) → (⟨S3, .f32⟩ : BufTy).Contents (Elt F)),
    unary main_cst_0 main_v1 ((extractStridedSlice S3 ![3] · slices_S6_S3_3) : (⟨S6, .f32⟩ : BufTy).Contents (Elt F) → (⟨S3, .f32⟩ : BufTy).Contents (Elt F)),
    unary main_cst_0 main_v2 ((extractStridedSlice S3 ![0] · slices_S6_S3_0) : (⟨S6, .f32⟩ : BufTy).Contents (Elt F) → (⟨S3, .f32⟩ : BufTy).Contents (Elt F)),
    binary main_v1 main_v2 main_v3 (subf : (⟨S3, .f32⟩ : BufTy).Contents (Elt F) → (⟨S3, .f32⟩ : BufTy).Contents (Elt F) → (⟨S3, .f32⟩ : BufTy).Contents (Elt F)),
    binary main_v3 main_cst main_v4 (Host.divf : (⟨S3, .f32⟩ : BufTy).Contents (Elt F) → (⟨S3, .f32⟩ : BufTy).Contents (Elt F) → (⟨S3, .f32⟩ : BufTy).Contents (Elt F)),
    TRef.unary (TRef.of (T := ⟨S3, .f32⟩) main_v4) main_call0.v0 Host.roundeven,
    unary main_v5 main_v6 (fptosi 32 : (⟨S3, .f32⟩ : BufTy).Contents (Elt F) → (⟨S3, .i32⟩ : BufTy).Contents (Elt F)),
    binary main_arg0 main_arg0 main_v7 (cmpf .une : (⟨S8x1000000x3, .f32⟩ : BufTy).Contents (Elt F) → (⟨S8x1000000x3, .f32⟩ : BufTy).Contents (Elt F) → (⟨S8x1000000x3, .i1⟩ : BufTy).Contents (Elt F)),
    nullary main_c (constantI S_ 1 0#1),
    binary main_v7 main_c main_v8 ((fun x v => Host.reduce IntOp.ori x v reducesTo_S8x1000000x3_S8x1000000_d2 h_S_) : (⟨S8x1000000x3, .i1⟩ : BufTy).Contents (Elt F) → (⟨S_, .i1⟩ : BufTy).Contents (Elt F) → (⟨S8x1000000, .i1⟩ : BufTy).Contents (Elt F)),
    unary main_v8 main_v9 (noti : (⟨S8x1000000, .i1⟩ : BufTy).Contents (Elt F) → (⟨S8x1000000, .i1⟩ : BufTy).Contents (Elt F)),
    unary main_v9 main_v10 (broadcastInDim S8x1000000x1 ![0, 1] bcast_S8x1000000_S8x1000000x1_0_1 : (⟨S8x1000000, .i1⟩ : BufTy).Contents (Elt F) → (⟨S8x1000000x1, .i1⟩ : BufTy).Contents (Elt F)),
    nullary main_cst_1 (constant S_ .f32 0x00000000#32),
    TRef.unary (TRef.of (T := ⟨S_, .f32⟩) main_cst_1) main_call1.v0 id,
    TRef.unary (TRef.of (T := ⟨S8x1000000x1, .i1⟩) main_v10) main_call1.v1 (broadcastInDim S8x1000000x3 ![0, 1, 2] bcast_S8x1000000x1_S8x1000000x3_0_1_2),
    TRef.unary main_call1.v0 main_call1.v2 (broadcastInDim S8x1000000x3 ![] bcast_S_S8x1000000x3),
    TRef.ternary main_call1.v1 (TRef.of (T := ⟨S8x1000000x3, .f32⟩) main_arg0) main_call1.v2 main_call1.v3 select,
    unary main_v0 main_v12 (broadcastInDim S1x1x3 ![2] bcast_S3_S1x1x3_2 : (⟨S3, .f32⟩ : BufTy).Contents (Elt F) → (⟨S1x1x3, .f32⟩ : BufTy).Contents (Elt F)),
    unary main_v12 main_v13 (broadcastInDim S8x1000000x3 ![0, 1, 2] bcast_S1x1x3_S8x1000000x3_0_1_2 : (⟨S1x1x3, .f32⟩ : BufTy).Contents (Elt F) → (⟨S8x1000000x3, .f32⟩ : BufTy).Contents (Elt F)),
    binary main_v11 main_v13 main_v14 (subf : (⟨S8x1000000x3, .f32⟩ : BufTy).Contents (Elt F) → (⟨S8x1000000x3, .f32⟩ : BufTy).Contents (Elt F) → (⟨S8x1000000x3, .f32⟩ : BufTy).Contents (Elt F)),
    unary main_cst main_v15 (broadcastInDim S1x1x3 ![2] bcast_S3_S1x1x3_2 : (⟨S3, .f32⟩ : BufTy).Contents (Elt F) → (⟨S1x1x3, .f32⟩ : BufTy).Contents (Elt F)),
    unary main_v15 main_v16 (broadcastInDim S8x1000000x3 ![0, 1, 2] bcast_S1x1x3_S8x1000000x3_0_1_2 : (⟨S1x1x3, .f32⟩ : BufTy).Contents (Elt F) → (⟨S8x1000000x3, .f32⟩ : BufTy).Contents (Elt F)),
    binary main_v14 main_v16 main_v17 (Host.divf : (⟨S8x1000000x3, .f32⟩ : BufTy).Contents (Elt F) → (⟨S8x1000000x3, .f32⟩ : BufTy).Contents (Elt F) → (⟨S8x1000000x3, .f32⟩ : BufTy).Contents (Elt F)),
    unary main_v17 main_v18 (Host.floor : (⟨S8x1000000x3, .f32⟩ : BufTy).Contents (Elt F) → (⟨S8x1000000x3, .f32⟩ : BufTy).Contents (Elt F)),
    unary main_v18 main_v19 (fptosi 32 : (⟨S8x1000000x3, .f32⟩ : BufTy).Contents (Elt F) → (⟨S8x1000000x3, .i32⟩ : BufTy).Contents (Elt F)),
    nullary main_c_2 (constantI S_ 32 0#32),
    unary main_c_2 main_v20 (broadcastInDim S8x1000000x3 ![] bcast_S_S8x1000000x3 : (⟨S_, .i32⟩ : BufTy).Contents (Elt F) → (⟨S8x1000000x3, .i32⟩ : BufTy).Contents (Elt F)),
    binary main_v19 main_v20 main_v21 (cmpi .sge : (⟨S8x1000000x3, .i32⟩ : BufTy).Contents (Elt F) → (⟨S8x1000000x3, .i32⟩ : BufTy).Contents (Elt F) → (⟨S8x1000000x3, .i1⟩ : BufTy).Contents (Elt F)),
    unary main_v6 main_v22 (broadcastInDim S1x1x3 ![2] bcast_S3_S1x1x3_2 : (⟨S3, .i32⟩ : BufTy).Contents (Elt F) → (⟨S1x1x3, .i32⟩ : BufTy).Contents (Elt F)),
    unary main_v22 main_v23 (broadcastInDim S8x1000000x3 ![0, 1, 2] bcast_S1x1x3_S8x1000000x3_0_1_2 : (⟨S1x1x3, .i32⟩ : BufTy).Contents (Elt F) → (⟨S8x1000000x3, .i32⟩ : BufTy).Contents (Elt F)),
    binary main_v19 main_v23 main_v24 (cmpi .slt : (⟨S8x1000000x3, .i32⟩ : BufTy).Contents (Elt F) → (⟨S8x1000000x3, .i32⟩ : BufTy).Contents (Elt F) → (⟨S8x1000000x3, .i1⟩ : BufTy).Contents (Elt F)),
    binary main_v21 main_v24 main_v25 (andi : (⟨S8x1000000x3, .i1⟩ : BufTy).Contents (Elt F) → (⟨S8x1000000x3, .i1⟩ : BufTy).Contents (Elt F) → (⟨S8x1000000x3, .i1⟩ : BufTy).Contents (Elt F)),
    nullary main_c_3 (constantI S_ 1 1#1),
    binary main_v25 main_c_3 main_v26 ((fun x v => Host.reduce IntOp.andi x v reducesTo_S8x1000000x3_S8x1000000_d2 h_S_) : (⟨S8x1000000x3, .i1⟩ : BufTy).Contents (Elt F) → (⟨S_, .i1⟩ : BufTy).Contents (Elt F) → (⟨S8x1000000, .i1⟩ : BufTy).Contents (Elt F)),
    binary main_v9 main_v26 main_v27 (andi : (⟨S8x1000000, .i1⟩ : BufTy).Contents (Elt F) → (⟨S8x1000000, .i1⟩ : BufTy).Contents (Elt F) → (⟨S8x1000000, .i1⟩ : BufTy).Contents (Elt F)),
    unary main_v27 main_v28 (broadcastInDim S8x1000000x1 ![0, 1] bcast_S8x1000000_S8x1000000x1_0_1 : (⟨S8x1000000, .i1⟩ : BufTy).Contents (Elt F) → (⟨S8x1000000x1, .i1⟩ : BufTy).Contents (Elt F)),
    unary main_v19 main_v29 (Host.reverse [2] : (⟨S8x1000000x3, .i32⟩ : BufTy).Contents (Elt F) → (⟨S8x1000000x3, .i32⟩ : BufTy).Contents (Elt F)),
    nullary main_c_4 (constantI S_ 32 4294967295#32),
    TRef.unary (TRef.of (T := ⟨S_, .i32⟩) main_c_4) main_call2.v0 id,
    TRef.unary (TRef.of (T := ⟨S8x1000000x1, .i1⟩) main_v28) main_call2.v1 (broadcastInDim S8x1000000x3 ![0, 1, 2] bcast_S8x1000000x1_S8x1000000x3_0_1_2),
    TRef.unary main_call2.v0 main_call2.v2 (broadcastInDim S8x1000000x3 ![] bcast_S_S8x1000000x3),
    TRef.ternary main_call2.v1 (TRef.of (T := ⟨S8x1000000x3, .i32⟩) main_v29) main_call2.v2 main_call2.v3 select,
    unary main_v19 main_v31 (sitofp .f32 : (⟨S8x1000000x3, .i32⟩ : BufTy).Contents (Elt F) → (⟨S8x1000000x3, .f32⟩ : BufTy).Contents (Elt F)),
    unary main_cst main_v32 (broadcastInDim S1x1x3 ![2] bcast_S3_S1x1x3_2 : (⟨S3, .f32⟩ : BufTy).Contents (Elt F) → (⟨S1x1x3, .f32⟩ : BufTy).Contents (Elt F)),
    unary main_v32 main_v33 (broadcastInDim S8x1000000x3 ![0, 1, 2] bcast_S1x1x3_S8x1000000x3_0_1_2 : (⟨S1x1x3, .f32⟩ : BufTy).Contents (Elt F) → (⟨S8x1000000x3, .f32⟩ : BufTy).Contents (Elt F)),
    binary main_v31 main_v33 main_v34 (mulf : (⟨S8x1000000x3, .f32⟩ : BufTy).Contents (Elt F) → (⟨S8x1000000x3, .f32⟩ : BufTy).Contents (Elt F) → (⟨S8x1000000x3, .f32⟩ : BufTy).Contents (Elt F)),
    unary main_v0 main_v35 (broadcastInDim S1x1x3 ![2] bcast_S3_S1x1x3_2 : (⟨S3, .f32⟩ : BufTy).Contents (Elt F) → (⟨S1x1x3, .f32⟩ : BufTy).Contents (Elt F)),
    unary main_v35 main_v36 (broadcastInDim S8x1000000x3 ![0, 1, 2] bcast_S1x1x3_S8x1000000x3_0_1_2 : (⟨S1x1x3, .f32⟩ : BufTy).Contents (Elt F) → (⟨S8x1000000x3, .f32⟩ : BufTy).Contents (Elt F)),
    binary main_v34 main_v36 main_v37 (addf : (⟨S8x1000000x3, .f32⟩ : BufTy).Contents (Elt F) → (⟨S8x1000000x3, .f32⟩ : BufTy).Contents (Elt F) → (⟨S8x1000000x3, .f32⟩ : BufTy).Contents (Elt F)),
    nullary main_cst_5 (constant S_ .f32 0x40000000#32),
    unary main_cst_5 main_v38 (broadcastInDim S3 ![] bcast_S_S3 : (⟨S_, .f32⟩ : BufTy).Contents (Elt F) → (⟨S3, .f32⟩ : BufTy).Contents (Elt F)),
    binary main_cst main_v38 main_v39 (Host.divf : (⟨S3, .f32⟩ : BufTy).Contents (Elt F) → (⟨S3, .f32⟩ : BufTy).Contents (Elt F) → (⟨S3, .f32⟩ : BufTy).Contents (Elt F)),
    unary main_v39 main_v40 (broadcastInDim S1x1x3 ![2] bcast_S3_S1x1x3_2 : (⟨S3, .f32⟩ : BufTy).Contents (Elt F) → (⟨S1x1x3, .f32⟩ : BufTy).Contents (Elt F)),
    unary main_v40 main_v41 (broadcastInDim S8x1000000x3 ![0, 1, 2] bcast_S1x1x3_S8x1000000x3_0_1_2 : (⟨S1x1x3, .f32⟩ : BufTy).Contents (Elt F) → (⟨S8x1000000x3, .f32⟩ : BufTy).Contents (Elt F)),
    binary main_v37 main_v41 main_v42 (addf : (⟨S8x1000000x3, .f32⟩ : BufTy).Contents (Elt F) → (⟨S8x1000000x3, .f32⟩ : BufTy).Contents (Elt F) → (⟨S8x1000000x3, .f32⟩ : BufTy).Contents (Elt F)),
    unary main_v27 main_v43 (broadcastInDim S8x1000000x1 ![0, 1] bcast_S8x1000000_S8x1000000x1_0_1 : (⟨S8x1000000, .i1⟩ : BufTy).Contents (Elt F) → (⟨S8x1000000x1, .i1⟩ : BufTy).Contents (Elt F)),
    binary main_v11 main_v42 main_v44 (subf : (⟨S8x1000000x3, .f32⟩ : BufTy).Contents (Elt F) → (⟨S8x1000000x3, .f32⟩ : BufTy).Contents (Elt F) → (⟨S8x1000000x3, .f32⟩ : BufTy).Contents (Elt F)),
    nullary main_cst_6 (constant S_ .f32 0x00000000#32),
    TRef.unary (TRef.of (T := ⟨S_, .f32⟩) main_cst_6) main_call3.v0 id,
    TRef.unary (TRef.of (T := ⟨S8x1000000x1, .i1⟩) main_v43) main_call3.v1 (broadcastInDim S8x1000000x3 ![0, 1, 2] bcast_S8x1000000x1_S8x1000000x3_0_1_2),
    TRef.unary main_call3.v0 main_call3.v2 (broadcastInDim S8x1000000x3 ![] bcast_S_S8x1000000x3),
    TRef.ternary main_call3.v1 (TRef.of (T := ⟨S8x1000000x3, .f32⟩) main_v44) main_call3.v2 main_call3.v3 select,
    unary main_v27 main_v46 (broadcastInDim S8x1000000x1 ![0, 1] bcast_S8x1000000_S8x1000000x1_0_1 : (⟨S8x1000000, .i1⟩ : BufTy).Contents (Elt F) → (⟨S8x1000000x1, .i1⟩ : BufTy).Contents (Elt F)),
    nullary main_cst_7 (constant S_ .f32 0x00000000#32),
    TRef.unary (TRef.of (T := ⟨S_, .f32⟩) main_cst_7) main_call4.v0 id,
    TRef.unary (TRef.of (T := ⟨S8x1000000x1, .i1⟩) main_v46) main_call4.v1 (broadcastInDim S8x1000000x3 ![0, 1, 2] bcast_S8x1000000x1_S8x1000000x3_0_1_2),
    TRef.unary main_call4.v0 main_call4.v2 (broadcastInDim S8x1000000x3 ![] bcast_S_S8x1000000x3),
    TRef.ternary main_call4.v1 (TRef.of (T := ⟨S8x1000000x3, .f32⟩) main_v11) main_call4.v2 main_call4.v3 select,
    nullary main_v48 (iotaInDim S1000000 32 0),
    unary main_v48 main_v49 (broadcastInDim S1x1000000 ![1] bcast_S1000000_S1x1000000_1 : (⟨S1000000, .i32⟩ : BufTy).Contents (Elt F) → (⟨S1x1000000, .i32⟩ : BufTy).Contents (Elt F)),
    nullary main_c_8 (constantI S_ 32 4294967295#32),
    TRef.unary (TRef.of (T := ⟨S_, .i32⟩) main_c_8) main_call5.v0 id,
    TRef.unary (TRef.of (T := ⟨S1x1000000, .i32⟩) main_v49) main_call5.v1 (broadcastInDim S8x1000000 ![0, 1] bcast_S1x1000000_S8x1000000_0_1),
    TRef.unary main_call5.v0 main_call5.v2 (broadcastInDim S8x1000000 ![] bcast_S_S8x1000000),
    TRef.ternary (TRef.of (T := ⟨S8x1000000, .i1⟩) main_v27) main_call5.v1 main_call5.v2 main_call5.v3 select ]

/-- The first thirty-seven of them: the constants, the cleaned points, the voxel coordinates and the validity mask. -/
abbrev opsA : List (HloOp τ sig (Elt F)) :=
  [ nullary main_cst (constant S3 .f32 0x3E4CCCCD#32),
    nullary main_cst_0 (fun i => FloatOps.ofBits .f32 (lit0 (S6.rowMajor i))),
    unary main_cst_0 main_v0 ((extractStridedSlice S3 ![0] · slices_S6_S3_0) : (⟨S6, .f32⟩ : BufTy).Contents (Elt F) → (⟨S3, .f32⟩ : BufTy).Contents (Elt F)),
    unary main_cst_0 main_v1 ((extractStridedSlice S3 ![3] · slices_S6_S3_3) : (⟨S6, .f32⟩ : BufTy).Contents (Elt F) → (⟨S3, .f32⟩ : BufTy).Contents (Elt F)),
    unary main_cst_0 main_v2 ((extractStridedSlice S3 ![0] · slices_S6_S3_0) : (⟨S6, .f32⟩ : BufTy).Contents (Elt F) → (⟨S3, .f32⟩ : BufTy).Contents (Elt F)),
    binary main_v1 main_v2 main_v3 (subf : (⟨S3, .f32⟩ : BufTy).Contents (Elt F) → (⟨S3, .f32⟩ : BufTy).Contents (Elt F) → (⟨S3, .f32⟩ : BufTy).Contents (Elt F)),
    binary main_v3 main_cst main_v4 (Host.divf : (⟨S3, .f32⟩ : BufTy).Contents (Elt F) → (⟨S3, .f32⟩ : BufTy).Contents (Elt F) → (⟨S3, .f32⟩ : BufTy).Contents (Elt F)),
    TRef.unary (TRef.of (T := ⟨S3, .f32⟩) main_v4) main_call0.v0 Host.roundeven,
    unary main_v5 main_v6 (fptosi 32 : (⟨S3, .f32⟩ : BufTy).Contents (Elt F) → (⟨S3, .i32⟩ : BufTy).Contents (Elt F)),
    binary main_arg0 main_arg0 main_v7 (cmpf .une : (⟨S8x1000000x3, .f32⟩ : BufTy).Contents (Elt F) → (⟨S8x1000000x3, .f32⟩ : BufTy).Contents (Elt F) → (⟨S8x1000000x3, .i1⟩ : BufTy).Contents (Elt F)),
    nullary main_c (constantI S_ 1 0#1),
    binary main_v7 main_c main_v8 ((fun x v => Host.reduce IntOp.ori x v reducesTo_S8x1000000x3_S8x1000000_d2 h_S_) : (⟨S8x1000000x3, .i1⟩ : BufTy).Contents (Elt F) → (⟨S_, .i1⟩ : BufTy).Contents (Elt F) → (⟨S8x1000000, .i1⟩ : BufTy).Contents (Elt F)),
    unary main_v8 main_v9 (noti : (⟨S8x1000000, .i1⟩ : BufTy).Contents (Elt F) → (⟨S8x1000000, .i1⟩ : BufTy).Contents (Elt F)),
    unary main_v9 main_v10 (broadcastInDim S8x1000000x1 ![0, 1] bcast_S8x1000000_S8x1000000x1_0_1 : (⟨S8x1000000, .i1⟩ : BufTy).Contents (Elt F) → (⟨S8x1000000x1, .i1⟩ : BufTy).Contents (Elt F)),
    nullary main_cst_1 (constant S_ .f32 0x00000000#32),
    TRef.unary (TRef.of (T := ⟨S_, .f32⟩) main_cst_1) main_call1.v0 id,
    TRef.unary (TRef.of (T := ⟨S8x1000000x1, .i1⟩) main_v10) main_call1.v1 (broadcastInDim S8x1000000x3 ![0, 1, 2] bcast_S8x1000000x1_S8x1000000x3_0_1_2),
    TRef.unary main_call1.v0 main_call1.v2 (broadcastInDim S8x1000000x3 ![] bcast_S_S8x1000000x3),
    TRef.ternary main_call1.v1 (TRef.of (T := ⟨S8x1000000x3, .f32⟩) main_arg0) main_call1.v2 main_call1.v3 select,
    unary main_v0 main_v12 (broadcastInDim S1x1x3 ![2] bcast_S3_S1x1x3_2 : (⟨S3, .f32⟩ : BufTy).Contents (Elt F) → (⟨S1x1x3, .f32⟩ : BufTy).Contents (Elt F)),
    unary main_v12 main_v13 (broadcastInDim S8x1000000x3 ![0, 1, 2] bcast_S1x1x3_S8x1000000x3_0_1_2 : (⟨S1x1x3, .f32⟩ : BufTy).Contents (Elt F) → (⟨S8x1000000x3, .f32⟩ : BufTy).Contents (Elt F)),
    binary main_v11 main_v13 main_v14 (subf : (⟨S8x1000000x3, .f32⟩ : BufTy).Contents (Elt F) → (⟨S8x1000000x3, .f32⟩ : BufTy).Contents (Elt F) → (⟨S8x1000000x3, .f32⟩ : BufTy).Contents (Elt F)),
    unary main_cst main_v15 (broadcastInDim S1x1x3 ![2] bcast_S3_S1x1x3_2 : (⟨S3, .f32⟩ : BufTy).Contents (Elt F) → (⟨S1x1x3, .f32⟩ : BufTy).Contents (Elt F)),
    unary main_v15 main_v16 (broadcastInDim S8x1000000x3 ![0, 1, 2] bcast_S1x1x3_S8x1000000x3_0_1_2 : (⟨S1x1x3, .f32⟩ : BufTy).Contents (Elt F) → (⟨S8x1000000x3, .f32⟩ : BufTy).Contents (Elt F)),
    binary main_v14 main_v16 main_v17 (Host.divf : (⟨S8x1000000x3, .f32⟩ : BufTy).Contents (Elt F) → (⟨S8x1000000x3, .f32⟩ : BufTy).Contents (Elt F) → (⟨S8x1000000x3, .f32⟩ : BufTy).Contents (Elt F)),
    unary main_v17 main_v18 (Host.floor : (⟨S8x1000000x3, .f32⟩ : BufTy).Contents (Elt F) → (⟨S8x1000000x3, .f32⟩ : BufTy).Contents (Elt F)),
    unary main_v18 main_v19 (fptosi 32 : (⟨S8x1000000x3, .f32⟩ : BufTy).Contents (Elt F) → (⟨S8x1000000x3, .i32⟩ : BufTy).Contents (Elt F)),
    nullary main_c_2 (constantI S_ 32 0#32),
    unary main_c_2 main_v20 (broadcastInDim S8x1000000x3 ![] bcast_S_S8x1000000x3 : (⟨S_, .i32⟩ : BufTy).Contents (Elt F) → (⟨S8x1000000x3, .i32⟩ : BufTy).Contents (Elt F)),
    binary main_v19 main_v20 main_v21 (cmpi .sge : (⟨S8x1000000x3, .i32⟩ : BufTy).Contents (Elt F) → (⟨S8x1000000x3, .i32⟩ : BufTy).Contents (Elt F) → (⟨S8x1000000x3, .i1⟩ : BufTy).Contents (Elt F)),
    unary main_v6 main_v22 (broadcastInDim S1x1x3 ![2] bcast_S3_S1x1x3_2 : (⟨S3, .i32⟩ : BufTy).Contents (Elt F) → (⟨S1x1x3, .i32⟩ : BufTy).Contents (Elt F)),
    unary main_v22 main_v23 (broadcastInDim S8x1000000x3 ![0, 1, 2] bcast_S1x1x3_S8x1000000x3_0_1_2 : (⟨S1x1x3, .i32⟩ : BufTy).Contents (Elt F) → (⟨S8x1000000x3, .i32⟩ : BufTy).Contents (Elt F)),
    binary main_v19 main_v23 main_v24 (cmpi .slt : (⟨S8x1000000x3, .i32⟩ : BufTy).Contents (Elt F) → (⟨S8x1000000x3, .i32⟩ : BufTy).Contents (Elt F) → (⟨S8x1000000x3, .i1⟩ : BufTy).Contents (Elt F)),
    binary main_v21 main_v24 main_v25 (andi : (⟨S8x1000000x3, .i1⟩ : BufTy).Contents (Elt F) → (⟨S8x1000000x3, .i1⟩ : BufTy).Contents (Elt F) → (⟨S8x1000000x3, .i1⟩ : BufTy).Contents (Elt F)),
    nullary main_c_3 (constantI S_ 1 1#1),
    binary main_v25 main_c_3 main_v26 ((fun x v => Host.reduce IntOp.andi x v reducesTo_S8x1000000x3_S8x1000000_d2 h_S_) : (⟨S8x1000000x3, .i1⟩ : BufTy).Contents (Elt F) → (⟨S_, .i1⟩ : BufTy).Contents (Elt F) → (⟨S8x1000000, .i1⟩ : BufTy).Contents (Elt F)),
    binary main_v9 main_v26 main_v27 (andi : (⟨S8x1000000, .i1⟩ : BufTy).Contents (Elt F) → (⟨S8x1000000, .i1⟩ : BufTy).Contents (Elt F) → (⟨S8x1000000, .i1⟩ : BufTy).Contents (Elt F)) ]

/-- The other forty: the five masked results, computed from what the first thirty-seven left. -/
abbrev opsB : List (HloOp τ sig (Elt F)) :=
  [ unary main_v27 main_v28 (broadcastInDim S8x1000000x1 ![0, 1] bcast_S8x1000000_S8x1000000x1_0_1 : (⟨S8x1000000, .i1⟩ : BufTy).Contents (Elt F) → (⟨S8x1000000x1, .i1⟩ : BufTy).Contents (Elt F)),
    unary main_v19 main_v29 (Host.reverse [2] : (⟨S8x1000000x3, .i32⟩ : BufTy).Contents (Elt F) → (⟨S8x1000000x3, .i32⟩ : BufTy).Contents (Elt F)),
    nullary main_c_4 (constantI S_ 32 4294967295#32),
    TRef.unary (TRef.of (T := ⟨S_, .i32⟩) main_c_4) main_call2.v0 id,
    TRef.unary (TRef.of (T := ⟨S8x1000000x1, .i1⟩) main_v28) main_call2.v1 (broadcastInDim S8x1000000x3 ![0, 1, 2] bcast_S8x1000000x1_S8x1000000x3_0_1_2),
    TRef.unary main_call2.v0 main_call2.v2 (broadcastInDim S8x1000000x3 ![] bcast_S_S8x1000000x3),
    TRef.ternary main_call2.v1 (TRef.of (T := ⟨S8x1000000x3, .i32⟩) main_v29) main_call2.v2 main_call2.v3 select,
    unary main_v19 main_v31 (sitofp .f32 : (⟨S8x1000000x3, .i32⟩ : BufTy).Contents (Elt F) → (⟨S8x1000000x3, .f32⟩ : BufTy).Contents (Elt F)),
    unary main_cst main_v32 (broadcastInDim S1x1x3 ![2] bcast_S3_S1x1x3_2 : (⟨S3, .f32⟩ : BufTy).Contents (Elt F) → (⟨S1x1x3, .f32⟩ : BufTy).Contents (Elt F)),
    unary main_v32 main_v33 (broadcastInDim S8x1000000x3 ![0, 1, 2] bcast_S1x1x3_S8x1000000x3_0_1_2 : (⟨S1x1x3, .f32⟩ : BufTy).Contents (Elt F) → (⟨S8x1000000x3, .f32⟩ : BufTy).Contents (Elt F)),
    binary main_v31 main_v33 main_v34 (mulf : (⟨S8x1000000x3, .f32⟩ : BufTy).Contents (Elt F) → (⟨S8x1000000x3, .f32⟩ : BufTy).Contents (Elt F) → (⟨S8x1000000x3, .f32⟩ : BufTy).Contents (Elt F)),
    unary main_v0 main_v35 (broadcastInDim S1x1x3 ![2] bcast_S3_S1x1x3_2 : (⟨S3, .f32⟩ : BufTy).Contents (Elt F) → (⟨S1x1x3, .f32⟩ : BufTy).Contents (Elt F)),
    unary main_v35 main_v36 (broadcastInDim S8x1000000x3 ![0, 1, 2] bcast_S1x1x3_S8x1000000x3_0_1_2 : (⟨S1x1x3, .f32⟩ : BufTy).Contents (Elt F) → (⟨S8x1000000x3, .f32⟩ : BufTy).Contents (Elt F)),
    binary main_v34 main_v36 main_v37 (addf : (⟨S8x1000000x3, .f32⟩ : BufTy).Contents (Elt F) → (⟨S8x1000000x3, .f32⟩ : BufTy).Contents (Elt F) → (⟨S8x1000000x3, .f32⟩ : BufTy).Contents (Elt F)),
    nullary main_cst_5 (constant S_ .f32 0x40000000#32),
    unary main_cst_5 main_v38 (broadcastInDim S3 ![] bcast_S_S3 : (⟨S_, .f32⟩ : BufTy).Contents (Elt F) → (⟨S3, .f32⟩ : BufTy).Contents (Elt F)),
    binary main_cst main_v38 main_v39 (Host.divf : (⟨S3, .f32⟩ : BufTy).Contents (Elt F) → (⟨S3, .f32⟩ : BufTy).Contents (Elt F) → (⟨S3, .f32⟩ : BufTy).Contents (Elt F)),
    unary main_v39 main_v40 (broadcastInDim S1x1x3 ![2] bcast_S3_S1x1x3_2 : (⟨S3, .f32⟩ : BufTy).Contents (Elt F) → (⟨S1x1x3, .f32⟩ : BufTy).Contents (Elt F)),
    unary main_v40 main_v41 (broadcastInDim S8x1000000x3 ![0, 1, 2] bcast_S1x1x3_S8x1000000x3_0_1_2 : (⟨S1x1x3, .f32⟩ : BufTy).Contents (Elt F) → (⟨S8x1000000x3, .f32⟩ : BufTy).Contents (Elt F)),
    binary main_v37 main_v41 main_v42 (addf : (⟨S8x1000000x3, .f32⟩ : BufTy).Contents (Elt F) → (⟨S8x1000000x3, .f32⟩ : BufTy).Contents (Elt F) → (⟨S8x1000000x3, .f32⟩ : BufTy).Contents (Elt F)),
    unary main_v27 main_v43 (broadcastInDim S8x1000000x1 ![0, 1] bcast_S8x1000000_S8x1000000x1_0_1 : (⟨S8x1000000, .i1⟩ : BufTy).Contents (Elt F) → (⟨S8x1000000x1, .i1⟩ : BufTy).Contents (Elt F)),
    binary main_v11 main_v42 main_v44 (subf : (⟨S8x1000000x3, .f32⟩ : BufTy).Contents (Elt F) → (⟨S8x1000000x3, .f32⟩ : BufTy).Contents (Elt F) → (⟨S8x1000000x3, .f32⟩ : BufTy).Contents (Elt F)),
    nullary main_cst_6 (constant S_ .f32 0x00000000#32),
    TRef.unary (TRef.of (T := ⟨S_, .f32⟩) main_cst_6) main_call3.v0 id,
    TRef.unary (TRef.of (T := ⟨S8x1000000x1, .i1⟩) main_v43) main_call3.v1 (broadcastInDim S8x1000000x3 ![0, 1, 2] bcast_S8x1000000x1_S8x1000000x3_0_1_2),
    TRef.unary main_call3.v0 main_call3.v2 (broadcastInDim S8x1000000x3 ![] bcast_S_S8x1000000x3),
    TRef.ternary main_call3.v1 (TRef.of (T := ⟨S8x1000000x3, .f32⟩) main_v44) main_call3.v2 main_call3.v3 select,
    unary main_v27 main_v46 (broadcastInDim S8x1000000x1 ![0, 1] bcast_S8x1000000_S8x1000000x1_0_1 : (⟨S8x1000000, .i1⟩ : BufTy).Contents (Elt F) → (⟨S8x1000000x1, .i1⟩ : BufTy).Contents (Elt F)),
    nullary main_cst_7 (constant S_ .f32 0x00000000#32),
    TRef.unary (TRef.of (T := ⟨S_, .f32⟩) main_cst_7) main_call4.v0 id,
    TRef.unary (TRef.of (T := ⟨S8x1000000x1, .i1⟩) main_v46) main_call4.v1 (broadcastInDim S8x1000000x3 ![0, 1, 2] bcast_S8x1000000x1_S8x1000000x3_0_1_2),
    TRef.unary main_call4.v0 main_call4.v2 (broadcastInDim S8x1000000x3 ![] bcast_S_S8x1000000x3),
    TRef.ternary main_call4.v1 (TRef.of (T := ⟨S8x1000000x3, .f32⟩) main_v11) main_call4.v2 main_call4.v3 select,
    nullary main_v48 (iotaInDim S1000000 32 0),
    unary main_v48 main_v49 (broadcastInDim S1x1000000 ![1] bcast_S1000000_S1x1000000_1 : (⟨S1000000, .i32⟩ : BufTy).Contents (Elt F) → (⟨S1x1000000, .i32⟩ : BufTy).Contents (Elt F)),
    nullary main_c_8 (constantI S_ 32 4294967295#32),
    TRef.unary (TRef.of (T := ⟨S_, .i32⟩) main_c_8) main_call5.v0 id,
    TRef.unary (TRef.of (T := ⟨S1x1000000, .i32⟩) main_v49) main_call5.v1 (broadcastInDim S8x1000000 ![0, 1] bcast_S1x1000000_S8x1000000_0_1),
    TRef.unary main_call5.v0 main_call5.v2 (broadcastInDim S8x1000000 ![] bcast_S_S8x1000000),
    TRef.ternary (TRef.of (T := ⟨S8x1000000, .i1⟩) main_v27) main_call5.v1 main_call5.v2 main_call5.v3 select ]

set_option maxRecDepth 8192 in
set_option maxHeartbeats 4000000 in
/-- The program is that straight line: the two halves of its text and the helpers' bodies unfold to it. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches buffers of the one processor only. -/
theorem ops_sub : (ops : List (HloOp τ sig (Elt F))).Forall fun op => op.bufs ⊆ tcRefs τ sig :=
  ⟨nullary_bufs_sub .., nullary_bufs_sub .., unary_bufs_sub .., unary_bufs_sub .., unary_bufs_sub .., binary_bufs_sub ..,
    binary_bufs_sub .., unary_bufs_sub .., unary_bufs_sub .., binary_bufs_sub .., nullary_bufs_sub .., binary_bufs_sub ..,
    unary_bufs_sub .., unary_bufs_sub .., nullary_bufs_sub .., unary_bufs_sub .., unary_bufs_sub .., unary_bufs_sub ..,
    ternary_bufs_sub .., unary_bufs_sub .., unary_bufs_sub .., binary_bufs_sub .., unary_bufs_sub .., unary_bufs_sub ..,
    binary_bufs_sub .., unary_bufs_sub .., unary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., unary_bufs_sub .., nullary_bufs_sub .., unary_bufs_sub .., unary_bufs_sub ..,
    unary_bufs_sub .., ternary_bufs_sub .., unary_bufs_sub .., unary_bufs_sub .., unary_bufs_sub .., binary_bufs_sub ..,
    unary_bufs_sub .., unary_bufs_sub .., binary_bufs_sub .., nullary_bufs_sub .., unary_bufs_sub .., binary_bufs_sub ..,
    unary_bufs_sub .., unary_bufs_sub .., binary_bufs_sub .., unary_bufs_sub .., binary_bufs_sub .., nullary_bufs_sub ..,
    unary_bufs_sub .., unary_bufs_sub .., unary_bufs_sub .., ternary_bufs_sub .., unary_bufs_sub .., nullary_bufs_sub ..,
    unary_bufs_sub .., unary_bufs_sub .., unary_bufs_sub .., ternary_bufs_sub .., nullary_bufs_sub .., unary_bufs_sub ..,
    nullary_bufs_sub .., unary_bufs_sub .., unary_bufs_sub .., unary_bufs_sub .., ternary_bufs_sub ..⟩

attribute [local irreducible] Host.reduce in
set_option maxRecDepth 8192 in
set_option maxHeartbeats 16000000 in
/-- The edge constant's buffer after the first part. -/
theorem A_vs3 (V : Valuation τ sig (Elt F)) :
    after opsA V (Proc.devRef .tc main_cst) = Terms.vs3 := by
  after_results_simp <;> rfl

attribute [local irreducible] Host.reduce in
set_option maxRecDepth 8192 in
set_option maxHeartbeats 16000000 in
/-- The lower corner's buffer after the first part. -/
theorem A_lo3 (V : Valuation τ sig (Elt F)) :
    after opsA V (Proc.devRef .tc main_v0) = Terms.lo3 := by
  after_results_simp <;> rfl

attribute [local irreducible] Host.reduce in
set_option maxRecDepth 8192 in
set_option maxHeartbeats 16000000 in
/-- The cleaned points' buffer after the first part. -/
theorem A_pts (V : Valuation τ sig (Elt F)) :
    after opsA V (Proc.devRef .tc main_v11) = Terms.pts (V (Proc.devRef .tc main_arg0)) := by
  after_results_simp <;> rfl

attribute [local irreducible] Host.reduce in
set_option maxRecDepth 8192 in
set_option maxHeartbeats 16000000 in
/-- The voxel coordinates' buffer after the first part. -/
theorem A_cells (V : Valuation τ sig (Elt F)) :
    after opsA V (Proc.devRef .tc main_v19) = Terms.cells (V (Proc.devRef .tc main_arg0)) := by
  after_results_simp <;> rfl

attribute [local irreducible] Host.reduce in
set_option maxRecDepth 8192 in
set_option maxHeartbeats 16000000 in
/-- The validity mask's buffer after the first part. -/
theorem A_valid (V : Valuation τ sig (Elt F)) :
    after opsA V (Proc.devRef .tc main_v27) = Terms.valid (V (Proc.devRef .tc main_arg0)) := by
  after_results_simp <;> rfl

attribute [local irreducible] Host.reduce in
set_option maxRecDepth 8192 in
set_option maxHeartbeats 16000000 in
/-- The first part writes nothing into the argument array. -/
theorem A_arg0 (V : Valuation τ sig (Elt F)) :
    after opsA V (Proc.devRef .tc main_arg0) = V (Proc.devRef .tc main_arg0) := by
  after_results_simp <;> rfl

attribute [local irreducible] Host.reduce in
set_option maxRecDepth 8192 in
set_option maxHeartbeats 16000000 in
/-- The masked points, from the mask and the cleaned points the first part left. -/
theorem B_outPts (W : Valuation τ sig (Elt F)) :
    after opsB W (Proc.devRef .tc main_v47) = select (Terms.up1 (W (Proc.devRef .tc main_v27))) (W (Proc.devRef .tc main_v11)) (Terms.zeroF (F := F)) := by
  after_results_simp <;> rfl

attribute [local irreducible] Host.reduce in
set_option maxRecDepth 8192 in
set_option maxHeartbeats 16000000 in
/-- The masked voxel coordinates, reversed to (z, y, x). -/
theorem B_coords (W : Valuation τ sig (Elt F)) :
    after opsB W (Proc.devRef .tc main_v30) = select (Terms.up1 (W (Proc.devRef .tc main_v27))) (Host.reverse [2] (W (Proc.devRef .tc main_v19))) Terms.minusOne3 := by
  after_results_simp <;> rfl

attribute [local irreducible] Host.reduce in
set_option maxRecDepth 8192 in
set_option maxHeartbeats 16000000 in
/-- The masked point indices. -/
theorem B_idxes (W : Valuation τ sig (Elt F)) :
    after opsB W (Proc.devRef .tc main_v50) = select (W (Proc.devRef .tc main_v27))
      (broadcastInDim S8x1000000 ![0, 1] bcast_S1x1000000_S8x1000000_0_1
        (broadcastInDim S1x1000000 ![1] bcast_S1000000_S1x1000000_1 (iotaInDim S1000000 32 0)))
      (broadcastInDim S8x1000000 ![] bcast_S_S8x1000000 (id (constantI S_ 32 4294967295#32))) := by
  after_results_simp <;> rfl

attribute [local irreducible] Host.reduce in
set_option maxRecDepth 8192 in
set_option maxHeartbeats 16000000 in
/-- The masked offsets of the cleaned points from their voxels' centres. -/
theorem B_offsets (W : Valuation τ sig (Elt F)) :
    after opsB W (Proc.devRef .tc main_v45) = select (Terms.up1 (W (Proc.devRef .tc main_v27)))
      (subf (W (Proc.devRef .tc main_v11))
        (addf (addf (mulf (sitofp .f32 (W (Proc.devRef .tc main_v19))) (Terms.up3 (W (Proc.devRef .tc main_cst)))) (Terms.up3 (W (Proc.devRef .tc main_v0))))
        (Terms.up3 (Host.divf (W (Proc.devRef .tc main_cst)) (broadcastInDim S3 ![] bcast_S_S3 (constant (F := F) S_ .f32 0x40000000#32))))))
      (Terms.zeroF (F := F)) := by
  after_results_simp <;> rfl

attribute [local irreducible] Host.reduce in
set_option maxRecDepth 8192 in
set_option maxHeartbeats 16000000 in
/-- The second part leaves the validity mask. -/
theorem B_valid (W : Valuation τ sig (Elt F)) :
    after opsB W (Proc.devRef .tc main_v27) = W (Proc.devRef .tc main_v27) := by
  after_results_simp <;> rfl

attribute [local irreducible] Host.reduce in
set_option maxRecDepth 8192 in
set_option maxHeartbeats 16000000 in
/-- The second part writes nothing into the argument array. -/
theorem B_arg0 (W : Valuation τ sig (Elt F)) :
    after opsB W (Proc.devRef .tc main_arg0) = W (Proc.devRef .tc main_arg0) := by
  after_results_simp <;> rfl

/-- Running two lines in a row is running their concatenation. -/
theorem after_two : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_two l₁ l₂]

/-- The line is its two parts, one after the other. -/
theorem ops_split : (ops : List (HloOp τ sig (Elt F))) = opsA ++ opsB := rfl

/-- What the whole line leaves is what the second part leaves of what the first part left. -/
theorem after_ops (V : Valuation τ sig (Elt F)) : after ops V = after opsB (after opsA V) := by
  rw [ops_split, after_two]

/-- After the line the masked points' buffer holds `Terms.outPts` of the argument array. -/
theorem outPts_eq (V : Valuation τ sig (Elt F)) :
    after ops V (Proc.devRef .tc main_v47) = Terms.outPts (V (Proc.devRef .tc main_arg0)) := by
  rw [after_ops, B_outPts, A_valid, A_pts, Terms.outPts]

/-- The voxel coordinates' buffer holds `Terms.coords` of the argument array. -/
theorem coords_eq (V : Valuation τ sig (Elt F)) :
    after ops V (Proc.devRef .tc main_v30) = Terms.coords (V (Proc.devRef .tc main_arg0)) := by
  rw [after_ops, B_coords, A_valid, A_cells, Terms.coords]

/-- The point indices' buffer holds `Terms.idxes` of the argument array. -/
theorem idxes_eq (V : Valuation τ sig (Elt F)) :
    after ops V (Proc.devRef .tc main_v50) = Terms.idxes (V (Proc.devRef .tc main_arg0)) := by
  rw [after_ops, B_idxes, A_valid, Terms.idxes]

/-- The offsets' buffer holds `Terms.offsets` of the argument array: the centres are the voxel coordinates times the
    edge, plus the lower corner, plus half an edge. -/
theorem offsets_eq (V : Valuation τ sig (Elt F)) :
    after ops V (Proc.devRef .tc main_v45) = Terms.offsets (V (Proc.devRef .tc main_arg0)) := by
  rw [after_ops, B_offsets, A_valid, A_pts, A_cells, A_vs3, A_lo3, Terms.offsets, Terms.centers]

/-- The validity mask's buffer holds `Terms.valid` of the argument array. -/
theorem valid_eq (V : Valuation τ sig (Elt F)) :
    after ops V (Proc.devRef .tc main_v27) = Terms.valid (V (Proc.devRef .tc main_arg0)) := by
  rw [after_ops, B_valid, A_valid]

/-- No operation writes the argument array. -/
theorem arg0_eq (V : Valuation τ sig (Elt F)) :
    after ops V (Proc.devRef .tc main_arg0) = V (Proc.devRef .tc main_arg0) := by
  rw [after_ops, B_arg0, A_arg0]

/-- From any memory with zero counters, every weakly fair execution of the reference terminates, with its five results
    at the terms `Terms` names of the argument array — the masked points, the voxel coordinates, the point indices,
    the offsets from the voxels' centres, the validity mask — and the argument array unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      (r.2.mem ((c.tc : Thread nD τ).loc main_v47) = Terms.outPts (m ((c.tc : Thread nD τ).loc main_arg0))
       ∧ r.2.mem ((c.tc : Thread nD τ).loc main_v30) = Terms.coords (m ((c.tc : Thread nD τ).loc main_arg0))
       ∧ r.2.mem ((c.tc : Thread nD τ).loc main_v50) = Terms.idxes (m ((c.tc : Thread nD τ).loc main_arg0))
       ∧ r.2.mem ((c.tc : Thread nD τ).loc main_v45) = Terms.offsets (m ((c.tc : Thread nD τ).loc main_arg0))
       ∧ r.2.mem ((c.tc : Thread nD τ).loc main_v27) = Terms.valid (m ((c.tc : Thread nD τ).loc main_arg0)))
      ∧ r.2.mem ((c.tc : Thread nD τ).loc main_arg0) = m ((c.tc : Thread nD τ).loc main_arg0)) :=
  (θ_run defs _ _).mono (fun _ h c =>
      ⟨⟨(h c main_v47).trans (outPts_eq (launchContents m c)),
        (h c main_v30).trans (coords_eq (launchContents m c)),
        (h c main_v50).trans (idxes_eq (launchContents m c)),
        (h c main_v45).trans (offsets_eq (launchContents m c)),
        (h c main_v27).trans (valid_eq (launchContents m c))⟩,
       (h c main_arg0).trans (arg0_eq (launchContents m c))⟩)
    (run_seq scopedRefs_eq scopedSems_eq defs main (fun _ => ops) main_eq (fun _ => ops_sub) m ρ)

end Cert.ReferenceIdeal.RefRun

end
-- ==== Proof.RefPointA.lean ====
/-
  Two general facts the reading of a per-row reduction needs, and nothing of this computation's numbers.

  (1) A fold of a commutative, associative operation over the three elements of `Fin 3` is the operation applied to
      the three values and the starting value.
  (2) A reduction of an array `[8, 1000000, 3]` along its last axis, by a commutative and associative operation from
      a scalar starting value, is at row `(b, n)` that operation over the row's three entries: the indices that drop
      to `(b, n)` are `(b, n, 0)`, `(b, n, 1)`, `(b, n, 2)`.
  Then the three identities on one-bit words that a chain of "and"s from 1 and of "or"s from 0 use.
-/
import Idealize.ShloMosaic.PureOps.Reduce
import Idealize.ShloMosaic.Lib.ValueIdx

noncomputable section

namespace Cert.Vox.Ref

open Idealize.ShloMosaic Idealize.ShloMosaic.ValueIdx

/-- The three-element fold, written out. -/
theorem fold_fin3 {α : Type} (op : α → α → α) [Std.Commutative op] [Std.Associative op] (b : α) (f : Fin 3 → α) :
    (Finset.univ : Finset (Fin 3)).fold op b f = op (f 0) (op (f 1) (op (f 2) b)) := by
  have hu : (Finset.univ : Finset (Fin 3)) = insert 0 (insert 1 {2}) := by decide
  rw [hu, Finset.fold_insert (by decide), Finset.fold_insert (by decide), Finset.fold_singleton]

/-- The point-array shape and the per-row shape. -/
abbrev P3 : Shape := ⟨3, ![8, 1000000, 3]⟩
abbrev P2 : Shape := ⟨2, ![8, 1000000]⟩

/-- Dropping the last axis of the point-array shape leaves the per-row shape. -/
theorem reduces_d2 : P3.Reduces [2] P2 := by decide

/-- The index over row `(b, n)` with `k` on the dropped axis is `(b, n, k)`. -/
theorem lift_d2 (b : Fin 8) (n : Fin 1000000) (k : Fin 3) : reduces_d2.lift (ix2 b n) k = ix3 b n k := by
  funext c
  apply Fin.ext
  show reduces_d2.liftVal (ix2 b n) k.val c = (ix3 b n k c).val
  match c with
  | ⟨0, _⟩ => simp [Shape.Reduces.liftVal]
  | ⟨1, _⟩ => simp [Shape.Reduces.liftVal]
  | ⟨2, _⟩ => simp [Shape.Reduces.liftVal]

/-- A reduction along the last axis, read at row `(b, n)`. -/
theorem reduce_d2 {α : Type} (f : α → α → α) [Std.Commutative f] [Std.Associative f] (y : P3.Idx → α)
    (init : (⟨0, ![]⟩ : Shape).Idx → α) (h' : P3.ReducesTo [2] P2) (hu : 0 < (⟨0, ![]⟩ : Shape).numel)
    (b : Fin 8) (n : Fin 1000000) :
    Host.reduce f y init h' hu (ix2 b n)
      = f (y (ix3 b n 0)) (f (y (ix3 b n 1)) (f (y (ix3 b n 2)) (init ix0))) := by
  rw [Host.reduce_eq_fold_single f y init h' reduces_d2 hu (ix2 b n)]
  show (Finset.univ : Finset (Fin 3)).fold f (init (Shape.Idx.first hu)) (y ∘ reduces_d2.lift (ix2 b n)) = _
  refine (fold_fin3 f _ _).trans ?_
  have e : ∀ k : Fin 3, (y ∘ reduces_d2.lift (ix2 b n)) k = y (ix3 b n k) := fun k => congrArg y (lift_d2 b n k)
  rw [e 0, e 1, e 2, eq_ix0 (Shape.Idx.first hu)]

/-- "And" with the one-bit word 1 changes nothing; three "and"s from 1 are the two "and"s of the three words. -/
theorem and3_one (a b c : BitVec 1) :
    IntOp.andi a (IntOp.andi b (IntOp.andi c 1#1)) = IntOp.andi (IntOp.andi a b) c := by
  revert a b c; decide

theorem one_and (a : BitVec 1) : IntOp.andi 1#1 a = a := by revert a; decide

/-- Three "or"s of 0 from 0 are 0, and its complement is 1. -/
theorem not_or3_zero : ~~~(IntOp.ori (0#1) (IntOp.ori 0#1 (IntOp.ori 0#1 0#1))) = 1#1 := by decide

end Cert.Vox.Ref

end
-- ==== Proof.RefPointB.lean ====
/-
  The reference's intermediate arrays read at one index, on the extended reals.

  The spreads of a per-row word over its row's three coordinates and of a per-axis triple over every row read the
  word, the triple's entry; the range constants read at axis `k` are the lower corner `lo k`, the upper corner, the
  edge, and the grid's extent `ext k`; no extended real differs from itself, so no row is dropped and the cleaned
  points are the points; the voxel coordinate at `(b, n, k)` is `cell k` of the point's coordinate there; the
  "and" over a row of the three in-range words is `valid` of the row; the centre at `(b, n, k)` is `center k`.
-/
import proofs.«122419_j8100308320786_1_alg».proof.Proof.Spec
import proofs.«122419_j8100308320786_1_alg».proof.Proof.RefTerms
import proofs.«122419_j8100308320786_1_alg».proof.Proof.Consts
import proofs.«122419_j8100308320786_1_alg».proof.Proof.RefPointA
import Idealize.ShloMosaic.Lib.IdealHost
import Idealize.ShloMosaic.Lib.Pipeline.Value

noncomputable section

namespace Cert.Vox.Ref

open Idealize.ShloMosaic Idealize.ShloMosaic.ValueIdx Cert.ReferenceIdeal Cert.ReferenceIdeal.Terms

variable [Cert.ReferenceIdeal.Facts]
open Facts₀ Facts

/-! ### The spreads -/

/-- A per-axis triple spread over every row reads, at `(b, n, k)`, its entry `k`. -/
theorem up3_apply {α : Type} (v : S3.Idx → α) (b : Fin 8) (n : Fin 1000000) (k : Fin 3) :
    up3 v (ix3 b n k) = v (ix1 k) := by
  unfold up3
  refine (broadcastInDim_apply _ _ _ (ix3 b n k) (ix3 (0 : Fin 1) (0 : Fin 1) k) (fun a => ?_)).trans ?_
  · match a with
    | ⟨0, _⟩ => rfl
    | ⟨1, _⟩ => rfl
    | ⟨2, _⟩ => rfl
  · refine broadcastInDim_apply _ _ _ (ix3 (0 : Fin 1) (0 : Fin 1) k) (ix1 k) (fun a => ?_)
    match a with
    | ⟨0, _⟩ => rfl

/-- A per-row word spread over its row's coordinates reads, at `(b, n, k)`, the row's word. -/
theorem up1_apply (v : IVec S8x1000000 1) (b : Fin 8) (n : Fin 1000000) (k : Fin 3) :
    up1 v (ix3 b n k) = v (ix2 b n) := by
  unfold up1
  refine (broadcastInDim_apply _ _ _ (ix3 b n k) (ix3 b n (0 : Fin 1)) (fun a => ?_)).trans ?_
  · match a with
    | ⟨0, _⟩ => rfl
    | ⟨1, _⟩ => rfl
    | ⟨2, _⟩ => rfl
  · refine broadcastInDim_apply _ _ _ (ix3 b n (0 : Fin 1)) (ix2 b n) (fun a => ?_)
    match a with
    | ⟨0, _⟩ => rfl
    | ⟨1, _⟩ => rfl

/-- The float zero everywhere. -/
theorem zeroF_apply (j : S8x1000000x3.Idx) : zeroF (F := Ideal) j = Vox.zero :=
  (broadcastInDim_scalar_apply _ _ j).trans rfl

/-- The word -1 everywhere. -/
theorem minusOne3_apply (j : S8x1000000x3.Idx) : minusOne3 j = 4294967295#32 :=
  (broadcastInDim_scalar_apply _ _ j).trans rfl

/-! ### The constants at an axis -/

/-- The upper corner of the range along axis `k`. -/
def hi (k : Fin 3) : EReal := match k with
  | 0 => Ideal.ofBits .f32 0x424CCCCD#32
  | 1 => Ideal.ofBits .f32 0x424CCCCD#32
  | 2 => Ideal.ofBits .f32 0x40400000#32

/-- Entry `i` of the six range constants is the table's entry `i`. -/
theorem pcr_apply (i : Fin 6) : pcr (F := Ideal) (ix1 i) = Ideal.ofBits .f32 (lit0 i) := by
  have e : S6.rowMajor (ix1 i) = i := Fin.ext (Shape.rowMajor_val_one (ix1 i))
  show Ideal.ofBits .f32 (lit0 (S6.rowMajor (ix1 i))) = _
  rw [e]

theorem lo3_apply (k : Fin 3) : lo3 (F := Ideal) (ix1 k) = Vox.lo k := by
  unfold lo3
  refine (extractStridedSlice_apply _ _ _ (ix1 k) (ix1 (k.castLE (by decide))) (fun a => ?_)).trans ?_
  · match a with
    | ⟨0, _⟩ => show k.val = 0 + k.val; omega
  · rw [pcr_apply]
    match k with
    | ⟨0, _⟩ => rfl
    | ⟨1, _⟩ => rfl
    | ⟨2, _⟩ => rfl

theorem hi3_apply (k : Fin 3) : hi3 (F := Ideal) (ix1 k) = hi k := by
  unfold hi3
  refine (extractStridedSlice_apply _ _ _ (ix1 k) (ix1 ⟨3 + k.val, by omega⟩) (fun a => ?_)).trans ?_
  · match a with
    | ⟨0, _⟩ => rfl
  · rw [pcr_apply]
    match k with
    | ⟨0, _⟩ => rfl
    | ⟨1, _⟩ => rfl
    | ⟨2, _⟩ => rfl

/-- The grid's extent along axis `k`: the range over the edge, rounded, as a word. -/
theorem grid3_apply (k : Fin 3) : grid3 (F := Ideal) (ix1 k) = Vox.ext k := by
  show Ideal.fptosi 32 (Ideal.liftRound Ideal.roundHalfEven
    (Ideal.div (hi3 (F := Ideal) (ix1 k) - lo3 (F := Ideal) (ix1 k)) (Ideal.ofBits .f32 0x3E4CCCCD#32))) = _
  rw [hi3_apply, lo3_apply]
  match k with
  | ⟨0, _⟩ => exact Consts.grid_xy
  | ⟨1, _⟩ => exact Consts.grid_xy
  | ⟨2, _⟩ => exact Consts.grid_z

variable (x : FVec Ideal S8x1000000x3 .f32)

/-! ### No row is dropped -/

/-- No coordinate differs from itself, so the "or" over a row is 0 and its complement 1. -/
theorem notNan_apply (b : Fin 8) (n : Fin 1000000) : notNan x (ix2 b n) = 1#1 := by
  unfold notNan
  show ~~~(Host.reduce IntOp.ori (cmpf .une x x) (constantI S_ 1 0#1) reducesTo_S8x1000000x3_S8x1000000_d2 h_S_
    (ix2 b n)) = 1#1
  rw [reduce_d2]
  have e : ∀ i, cmpf .une x x i = 0#1 := fun i => Consts.cmp_une_self (x i)
  rw [e, e, e]
  exact not_or3_zero

/-- The cleaned points are the points. -/
theorem pts_eq : pts x = x := by
  funext j
  obtain ⟨b, n, k, rfl⟩ : ∃ (b : Fin 8) (n : Fin 1000000) (k : Fin 3), j = ix3 b n k := ⟨j 0, j 1, j 2, eq_ix3 j⟩
  unfold pts
  rw [select_apply, up1_apply, notNan_apply, select_one]

/-! ### The voxel coordinate, the in-grid mask, the centre -/

theorem cells_apply (b : Fin 8) (n : Fin 1000000) (k : Fin 3) :
    cells x (ix3 b n k) = Vox.cell k (x (ix3 b n k)) := by
  unfold cells
  rw [pts_eq]
  show Ideal.fptosi 32 (Ideal.liftRound Int.floor (Ideal.div
    (x (ix3 b n k) - up3 (lo3 (F := Ideal)) (ix3 b n k)) (up3 (vs3 (F := Ideal)) (ix3 b n k)))) = _
  rw [up3_apply, up3_apply, lo3_apply]
  rfl

/-- The word "the voxel coordinate at `(b, n, k)` is in range". -/
theorem inside_apply (b : Fin 8) (n : Fin 1000000) (k : Fin 3) :
    andi (cmpi .sge (cells x) (broadcastInDim S8x1000000x3 ![] bcast_S_S8x1000000x3 (constantI S_ 32 0#32)))
      (cmpi .slt (cells x) (up3 (grid3 (F := Ideal)))) (ix3 b n k) = Vox.inside k (x (ix3 b n k)) := by
  show IntOp.andi
    (IntOp.cmpi .sge (cells x (ix3 b n k))
      (broadcastInDim S8x1000000x3 ![] bcast_S_S8x1000000x3 (constantI S_ 32 0#32) (ix3 b n k)))
    (IntOp.cmpi .slt (cells x (ix3 b n k)) (up3 (grid3 (F := Ideal)) (ix3 b n k))) = _
  rw [cells_apply, broadcastInDim_scalar_apply, up3_apply, grid3_apply]
  rfl

theorem inGrid_apply (b : Fin 8) (n : Fin 1000000) : inGrid x (ix2 b n) = Vox.valid (Vox.pt x b n) := by
  unfold inGrid
  rw [reduce_d2, inside_apply, inside_apply, inside_apply]
  exact and3_one _ _ _

theorem valid_apply (b : Fin 8) (n : Fin 1000000) : Terms.valid x (ix2 b n) = Vox.valid (Vox.pt x b n) := by
  show IntOp.andi (notNan x (ix2 b n)) (inGrid x (ix2 b n)) = _
  rw [notNan_apply, inGrid_apply]
  exact one_and _

theorem centers_apply (b : Fin 8) (n : Fin 1000000) (k : Fin 3) :
    centers x (ix3 b n k) = Vox.center k (x (ix3 b n k)) := by
  unfold centers
  show ((((cells x (ix3 b n k)).toInt : ℝ) : EReal) * up3 (vs3 (F := Ideal)) (ix3 b n k)
      + up3 (lo3 (F := Ideal)) (ix3 b n k))
    + up3 (Host.divf (vs3 (F := Ideal))
        (broadcastInDim S3 ![] bcast_S_S3 (constant (F := Ideal) S_ .f32 0x40000000#32))) (ix3 b n k) = _
  rw [up3_apply, up3_apply, up3_apply, cells_apply, lo3_apply]
  show _ + Ideal.div (Ideal.ofBits .f32 0x3E4CCCCD#32)
    (broadcastInDim S3 ![] bcast_S_S3 (constant (F := Ideal) S_ .f32 0x40000000#32) (ix1 k)) = _
  rw [broadcastInDim_scalar_apply]
  show _ + Ideal.div (Ideal.ofBits .f32 0x3E4CCCCD#32) (Ideal.ofBits .f32 0x40000000#32) = _
  rw [Consts.half_edge]
  rfl

end Cert.Vox.Ref

end
-- ==== Proof.RefPoint.lean ====
/-
  The reference's five results, on the extended reals, are the specification's functions of the point array.

  Each result is a select on the row's mask between a pointwise term and a constant; read at an index, the mask is
  `valid` of the row, and the term is the specification's: the point, the voxel coordinate at the mirrored axis
  (the reference reverses the last axis), the point minus its voxel's centre, the row's number.
-/
import proofs.«122419_j8100308320786_1_alg».proof.Proof.Spec
import proofs.«122419_j8100308320786_1_alg».proof.Proof.RefTerms
import proofs.«122419_j8100308320786_1_alg».proof.Proof.Consts
import proofs.«122419_j8100308320786_1_alg».proof.Proof.RefPointA
import proofs.«122419_j8100308320786_1_alg».proof.Proof.RefPointB
import Idealize.ShloMosaic.Lib.IdealHost
import Idealize.ShloMosaic.Lib.Pipeline.Value

noncomputable section

namespace Cert.Vox.Ref

open Idealize.ShloMosaic Idealize.ShloMosaic.ValueIdx Cert.ReferenceIdeal Cert.ReferenceIdeal.Terms

variable [Cert.ReferenceIdeal.Facts]
open Facts₀ Facts

variable (x : FVec Ideal S8x1000000x3 .f32)

/-- The mask. -/
theorem valid_eq : Cert.ReferenceIdeal.Terms.valid (F := Ideal) x = Cert.Vox.validA (N := 1000000) x := by
  funext j
  obtain ⟨b, n, rfl⟩ : ∃ (b : Fin 8) (n : Fin 1000000), j = ix2 b n := ⟨j 0, j 1, eq_ix2 j⟩
  exact valid_apply x b n

/-- The points of the valid rows. -/
theorem outPts_eq : Cert.ReferenceIdeal.Terms.outPts (F := Ideal) x = Cert.Vox.outPts (N := 1000000) x := by
  funext j
  obtain ⟨b, n, k, rfl⟩ : ∃ (b : Fin 8) (n : Fin 1000000) (k : Fin 3), j = ix3 b n k := ⟨j 0, j 1, j 2, eq_ix3 j⟩
  unfold Cert.ReferenceIdeal.Terms.outPts
  rw [select_apply, up1_apply, valid_apply, pts_eq, zeroF_apply]
  rfl

/-- The voxel coordinates in the order (z, y, x): the reversed last axis reads the coordinate at the mirrored axis. -/
theorem coords_eq : Cert.ReferenceIdeal.Terms.coords (F := Ideal) x = Cert.Vox.coords (N := 1000000) x := by
  funext j
  obtain ⟨b, n, k, rfl⟩ : ∃ (b : Fin 8) (n : Fin 1000000) (k : Fin 3), j = ix3 b n k := ⟨j 0, j 1, j 2, eq_ix3 j⟩
  unfold Cert.ReferenceIdeal.Terms.coords
  rw [select_apply, up1_apply, valid_apply, minusOne3_apply]
  have hr : Host.reverse [2] (cells x) (ix3 b n k) = cells x (ix3 b n k.rev) :=
    congrArg (cells x) (funext fun a => match a with
      | ⟨0, _⟩ => rfl
      | ⟨1, _⟩ => rfl
      | ⟨2, _⟩ => rfl)
  rw [hr, cells_apply]
  rfl

/-- The points minus their voxels' centres. -/
theorem offsets_eq : Cert.ReferenceIdeal.Terms.offsets (F := Ideal) x = Cert.Vox.offsets (N := 1000000) x := by
  funext j
  obtain ⟨b, n, k, rfl⟩ : ∃ (b : Fin 8) (n : Fin 1000000) (k : Fin 3), j = ix3 b n k := ⟨j 0, j 1, j 2, eq_ix3 j⟩
  unfold Cert.ReferenceIdeal.Terms.offsets
  rw [select_apply, up1_apply, valid_apply, subf_apply, pts_eq, centers_apply, zeroF_apply]
  rfl

/-- The rows' numbers: the iota along the rows, spread over the eight batches. -/
theorem idxes_eq : Cert.ReferenceIdeal.Terms.idxes (F := Ideal) x = Cert.Vox.idxes (N := 1000000) x := by
  funext j
  obtain ⟨b, n, rfl⟩ : ∃ (b : Fin 8) (n : Fin 1000000), j = ix2 b n := ⟨j 0, j 1, eq_ix2 j⟩
  unfold Cert.ReferenceIdeal.Terms.idxes
  rw [select_apply, valid_apply, broadcastInDim_scalar_apply]
  have hi : broadcastInDim S8x1000000 ![0, 1] bcast_S1x1000000_S8x1000000_0_1
      (broadcastInDim S1x1000000 ![1] bcast_S1000000_S1x1000000_1 (iotaInDim S1000000 32 0)) (ix2 b n)
      = BitVec.ofNat 32 n.val := by
    refine (broadcastInDim_apply _ _ _ (ix2 b n) (ix2 (0 : Fin 1) n) (fun a => ?_)).trans ?_
    · match a with
      | ⟨0, _⟩ => rfl
      | ⟨1, _⟩ => rfl
    · refine (broadcastInDim_apply _ _ _ (ix2 (0 : Fin 1) n) (ix1 n) (fun a => ?_)).trans ?_
      · match a with
        | ⟨0, _⟩ => rfl
      · rfl
  rw [hi]
  rfl

end Cert.Vox.Ref

end
-- ==== Proof.lean ====
/-
  A point-cloud voxelizer against its plain reference, on the extended reals.

  Both programs take a point array x : [8, 1000000, 3] and return, per row, the point (or 0), its voxel coordinates in
  the order (z, y, x) (or -1), the row's number (or -1), the point's offset from its voxel's centre (or 0) and the mask
  of valid rows; Proof/Spec.lean states the five as functions of x. The kernel pads x to 123 blocks of 8192 rows, computes
  the five block by block and cuts the padding off again; every function of the specification at a row depends on that
  row only, so padding and cutting change nothing (Proof/KLayout, KPoint, KBlocks, KTail). The reference computes them on
  whole arrays (Proof/RefTerms, RefRun, RefPoint). The two texts differ in four places, none of which changes a value:
  a coordinate never differs from itself, whichever comparison asks; the grid's extents the reference computes from
  the range and the edge are the integers 512, 512, 30 the kernel spells; half an edge is the literal the kernel adds;
  and a conjunction of six one-bit tests does not depend on its grouping (Proof/Consts). No step needs the inputs to be
  finite: only sums, differences and products by the same constants in the same order occur on both sides.

  The three frames: the kernel's, at words and on the extended reals, is its frame certificate
  (Proof/KernelFrameP, Proof/KernelIdealFrameP); the reference's is its run with the results dropped. The idealization
  rewrote nothing, so it preserves everything.
-/
import proofs.«122419_j8100308320786_1_alg».proof.Defs
import proofs.«122419_j8100308320786_1_alg».proof.Proof.Gen.Kernel
import proofs.«122419_j8100308320786_1_alg».proof.Proof.Gen.KernelIdeal
import proofs.«122419_j8100308320786_1_alg».proof.Proof.Gen.ReferenceIdeal
import proofs.«122419_j8100308320786_1_alg».proof.Proof.Gen.Pre_finite_inputs
import proofs.«122419_j8100308320786_1_alg».proof.Proof.KernelFrameP
import proofs.«122419_j8100308320786_1_alg».proof.Proof.KernelIdealFrameP
import proofs.«122419_j8100308320786_1_alg».proof.Proof.KTail
import proofs.«122419_j8100308320786_1_alg».proof.Proof.RefRun
import proofs.«122419_j8100308320786_1_alg».proof.Proof.RefPoint
import Idealize.ShloMosaic.Adequacy
import Idealize.ShloMosaic.Init

noncomputable section

namespace Cert.Proof

open Idealize.ShloMosaic Idealize.SL.Sem

theorem frame_k : Cert.frame_Kernel := fun m ρ _ => Cert.Kernel.GenP.frame m ρ

theorem frame_ki : Cert.frame_KernelIdeal := fun m ρ _ => Cert.KernelIdeal.GenP.frame m ρ

/-- The reference's run, its results dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Both runs end with the specification's five functions of the argument array, which the two memories agree on. -/
theorem algebraic : Cert.algebraic_KernelIdeal_ReferenceIdeal := by
  intro m ρ m' ρ' _ hagree
  refine ⟨fun c => Cert.Vox.outPts (N := 1000000) (m ((c.tc : Thread Cert.KernelIdeal.nD Cert.KernelIdeal.τ).loc Cert.KernelIdeal.main_arg0)),
    fun c => Cert.Vox.coords (N := 1000000) (m ((c.tc : Thread Cert.KernelIdeal.nD Cert.KernelIdeal.τ).loc Cert.KernelIdeal.main_arg0)),
    fun c => Cert.Vox.idxes (N := 1000000) (m ((c.tc : Thread Cert.KernelIdeal.nD Cert.KernelIdeal.τ).loc Cert.KernelIdeal.main_arg0)),
    fun c => Cert.Vox.offsets (N := 1000000) (m ((c.tc : Thread Cert.KernelIdeal.nD Cert.KernelIdeal.τ).loc Cert.KernelIdeal.main_arg0)),
    fun c => Cert.Vox.validA (N := 1000000) (m ((c.tc : Thread Cert.KernelIdeal.nD Cert.KernelIdeal.τ).loc Cert.KernelIdeal.main_arg0)), ?_, ?_⟩
  · exact (θ_run Cert.KernelIdeal.defs _ _).mono
      (fun _ h c => ⟨(h c).1.1, (h c).1.2.1, (h c).1.2.2.1, (h c).1.2.2.2.1, (h c).1.2.2.2.2, (h c).2⟩)
      (Cert.KernelIdeal.KTail.run m ρ)
  · refine (θ_run Cert.ReferenceIdeal.defs _ _).mono (fun _ h c => ⟨?_, ?_, ?_, ?_, ?_, (h c).2⟩) (Cert.ReferenceIdeal.RefRun.run (F := Ideal) m' ρ')
    · rw [(h c).1.1, Cert.Vox.Ref.outPts_eq, hagree c]
    · rw [(h c).1.2.1, Cert.Vox.Ref.coords_eq, hagree c]
    · rw [(h c).1.2.2.1, Cert.Vox.Ref.idxes_eq, hagree c]
    · rw [(h c).1.2.2.2.1, Cert.Vox.Ref.offsets_eq, hagree c]
    · rw [(h c).1.2.2.2.2, Cert.Vox.Ref.valid_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
